-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S25x1x128 : Shape := ⟨3, ![25, 1, 128]⟩
abbrev S4000x128 : Shape := ⟨2, ![4000, 128]⟩
abbrev S4000x1 : Shape := ⟨2, ![4000, 1]⟩
abbrev S1x1x128 : Shape := ⟨3, ![1, 1, 128]⟩
abbrev S25x128 : Shape := ⟨2, ![25, 128]⟩

abbrev nBuf : Space → Nat
  | .hbm => 66
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .bf16⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .bf16⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S100000x1, .f32⟩
  | .hbm, ⟨33, _⟩ => ⟨S128x128, .f32⟩
  | .hbm, ⟨34, _⟩ => ⟨S128x128, .f32⟩
  | .hbm, ⟨35, _⟩ => ⟨S1x128, .f32⟩
  | .hbm, ⟨36, _⟩ => ⟨S100000x128, .bf16⟩
  | .hbm, ⟨37, _⟩ => ⟨S25x1x128, .f32⟩
  | .hbm, ⟨38, _⟩ => ⟨S25x1x128, .f32⟩
  | .hbm, ⟨39, _⟩ => ⟨S25x128, .f32⟩
  | .hbm, ⟨40, _⟩ => ⟨S_, .f32⟩
  | .hbm, ⟨41, _⟩ => ⟨S128, .f32⟩
  | .hbm, ⟨42, _⟩ => ⟨S25x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S1x128, .f32⟩
  | .hbm, ⟨65, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S4000x128, .bf16⟩
  | .local _ .vmem, ⟨10, _⟩ => ⟨S4000x128, .bf16⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S4000x128, .bf16⟩
  | .local _ .vmem, ⟨16, _⟩ => ⟨S4000x128, .bf16⟩
  | .local _ .vmem, ⟨17, _⟩ => ⟨S1x128, .f32⟩
  | .local _ .vmem, ⟨18, _⟩ => ⟨S1x128, .f32⟩
  | .local _ .vmem, ⟨19, _⟩ => ⟨S4000x128, .f32⟩
  | .local _ .vmem, ⟨20, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  reduces_S4000x128_S128 : S4000x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S25x1x128_S25x128 : S25x1x128.ShapeCasts S25x128
  reducesTo_S25x128_S128_d0 : S25x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S25x1x128.size a
  hwx0_7 : ∀ i : grid0.Coords, EltTy.bits .f32 = 32 ∨ (Rect.block (s := S25x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S25x1x128.size a
  hwx0_8 : ∀ i : grid0.Coords, EltTy.bits .f32 = 32 ∨ (Rect.block (s := S25x1x128) S1x1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v15) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .i1⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  @main is four segments: the host prologue (the edge gather, the two scatter-adds, the weight transposes), the first
  pallas_call (one SAGE layer per block of 4000 rows, with each block's column sums and column sums of squares), the host
  stretch that turns the 25 partial sums into the BatchNorm scale and bias, and the second pallas_call (the affine map and
  the leaky rectifier, block by block). The buffer contents at each boundary are a fold from the launch memory; after the
  last segment every unscoped buffer holds that fold's last stage. Read at the result buffer this gives the array the
  second pallas_call's write-backs leave; read at an argument it gives the launch contents.
-/
import proofs.«152660_j24068996727347_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last stage of the fold
    of buffer contents through the four segments, and the seven arguments end as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

/-- The result buffer is the second pallas_call's output window: its final array is what that call's write-backs leave. -/
theorem result_eq (c : Dev nD) :
    W4 m ρ c (Proc.devRef .tc main_v45) = (dat1 (V3 m ρ) c).arrAt 3 cfg1.N :=
  W4_arr m ρ c 3

end Cert.KernelIdeal.Named

end
-- ==== Proof.Spec.lean ====
/-
  The mathematics both programs compute, stated once, on the extended reals.

  A SAGE layer at node p and output feature q: with c = max(cnt[p], 1),
      layer = (∑ₖ (msg[p,k] / c) · wl[k,q] + ∑ₖ x[p,k] · wr[k,q]) + b[q],
  where msg is the sum of the neighbours' features, cnt the number of neighbours, and wl, wr are the two weights already
  transposed. BatchNorm over the N = 100000 nodes follows, per feature, then the leaky rectifier. The reference takes
  the mean μ = (∑ h)/N and the variance (∑ (h − μ)²)/N in two passes and returns leaky((γ·(h − μ))·rsqrt(var + ε) + β);
  the kernel takes t₁ = ∑ h and t₂ = ∑ h², forms μ = t₁/N and var = max(t₂/N − μ·μ, 0), then scale = γ·rsqrt(var + ε),
  bias = β − μ·scale, and returns leaky(h·scale + bias). The float literals are kept as their f32 words.
-/
import Idealize.ShloMosaic.PureOps.Ideal
import Idealize.ShloMosaic.Lib.ValueIdx

noncomputable section

namespace Cert.Spec

open Idealize.ShloMosaic Idealize.ShloMosaic.ValueIdx

/-- The f32 words the two programs print, read on the extended reals: 0, 1, the node count 100000, the variance
    guard ε (the f32 nearest 1e-5) and the rectifier's slope (the f32 nearest 0.01). -/
abbrev zeroW : EReal := Ideal.ofBits .f32 0x00000000#32
abbrev oneW : EReal := Ideal.ofBits .f32 0x3F800000#32
abbrev nW : EReal := Ideal.ofBits .f32 0x47C35000#32
abbrev epsW : EReal := Ideal.ofBits .f32 0x3727C5AC#32
abbrev slopeW : EReal := Ideal.ofBits .f32 0x3C23D70A#32

/-- One SAGE layer at row `p` and column `q`, over `M` rows: the neighbour mean through the left weight, the node's own
    features through the right weight, and the bias row. -/
def layer {M : ℕ} (cnt : (⟨2, ![M, 1]⟩ : Shape).Idx → EReal) (msg x : (⟨2, ![M, 128]⟩ : Shape).Idx → EReal)
    (wl wr : (⟨2, ![128, 128]⟩ : Shape).Idx → EReal) (b : (⟨2, ![1, 128]⟩ : Shape).Idx → EReal) (p : Fin M) (q : Fin 128) : EReal :=
  (∑ k : Fin 128, Ideal.div (msg (ix2 p k)) (max (cnt (ix2 p (0 : Fin 1))) oneW) * wl (ix2 k q)
    + ∑ k : Fin 128, x (ix2 p k) * wr (ix2 k q)) + b (ix2 (0 : Fin 1) q)

/-- The leaky rectifier: `y` where `y ≥ 0`, `slope · y` elsewhere. -/
def leaky (y : EReal) : EReal := Scalar.select (Ideal.cmp .oge y zeroW) y (slopeW * y)

/-- The reference's output at node `i`, feature `j`, from the layer's array `h`: two-pass BatchNorm, then the rectifier. -/
def refOut (h : (⟨2, ![100000, 128]⟩ : Shape).Idx → EReal) (g b : (⟨1, ![128]⟩ : Shape).Idx → EReal) (i : Fin 100000) (j : Fin 128) : EReal :=
  leaky ((g (ix1 j) * (h (ix2 i j) - Ideal.div (zeroW + ∑ k : Fin 100000, h (ix2 k j)) nW))
      * Ideal.rsqrt (Ideal.div (zeroW + ∑ k : Fin 100000,
            (h (ix2 k j) - Ideal.div (zeroW + ∑ k : Fin 100000, h (ix2 k j)) nW)
              * (h (ix2 k j) - Ideal.div (zeroW + ∑ k : Fin 100000, h (ix2 k j)) nW)) nW + epsW)
    + b (ix1 j))

/-- The kernel's BatchNorm scale for one feature, from the two totals `t1 = ∑ h`, `t2 = ∑ h²` and the gain `g`. -/
def scaleOf (t1 t2 g : EReal) : EReal :=
  g * Ideal.rsqrt (max (Ideal.div t2 nW - Ideal.div t1 nW * Ideal.div t1 nW) zeroW + epsW)

/-- The kernel's BatchNorm bias for one feature. -/
def biasOf (t1 t2 g b : EReal) : EReal := b - Ideal.div t1 nW * scaleOf t1 t2 g

/-- The kernel's output at one entry, from the layer's value `h` there and the feature's totals. -/
def kerOut (h t1 t2 g b : EReal) : EReal := leaky (h * scaleOf t1 t2 g + biasOf t1 t2 g b)

end Cert.Spec

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibRank3Columns.lean ====
/-
  Rank-3 layout operations that put a matrix on the two LEADING axes of a three-axis block, read at coordinates.

  * an [a, b] matrix given a unit trailing axis, [a, b, 1]: entry (i, j, u) is the matrix's (i, j);
  * an [a, b, 1] array spread along its trailing axis to [a, b, c]: entry (i, j, k) is the operand's (i, j, 0);
  * a row [1, c] given a second unit leading axis, [1, 1, c]: entry (u, v, k) is the row's (0, k).

  All are general in the extents. They are the companions, for the trailing axis, of the forms that insert a unit
  middle or leading axis.
-/
import Idealize.ShloMosaic.Lib.ValueIdx
import Idealize.ShloMosaic.Lib.Pipeline.Value

namespace Idealize.ShloMosaic.ValueRank3Columns

open Idealize.ShloMosaic Idealize.ShloMosaic.ValueIdx

variable {α : Type}

/-- An `[a, b]` matrix cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A row `[1, c]` cast to `[1, 1, c]` reads, at `(u, v, k)`, the row at `(0, k)`. -/
theorem shapeCast_1c_11c_apply {c : ℕ} (x : (⟨2, ![1, c]⟩ : Shape).Idx → α)
    (h : (⟨2, ![1, c]⟩ : Shape).ShapeCasts ⟨3, ![1, 1, c]⟩) (u v : Fin 1) (k : Fin c) :
    shapeCast ⟨3, ![1, 1, c]⟩ x h (ix3 u v k) = x (ix2 (0 : Fin 1) k) :=
  shapeCast_apply x h _ _ (by
    have hu : u.val = 0 := by omega
    have hv : v.val = 0 := by omega
    rw [Shape.rowMajor_val_three, Shape.rowMajor_val_two]
    show (0 : Fin 1).val * c + k.val = (u.val * 1 + v.val) * c + k.val
    rw [hu, hv]; simp)

end Idealize.ShloMosaic.ValueRank3Columns
-- ==== Proof.Payload.lean ====
/-
  The two kernel bodies, read entry by entry on the extended reals.

  First body, on a block of 4000 rows: the SAGE layer of the specification at row p and column q of the block (the two
  matrix products run into zero accumulators; rounding to a shorter float format is the identity on the extended reals),
  and beside it, per column, the sum over the block's rows of the layer and of its square.

  Second body, on a block of 4000 rows: y = h[p,q] · scale[q] + bias[q], and the entry is y where y ≥ 0 and slope · y elsewhere.
-/
import proofs.«152660_j24068996727347_2_alg».proof.Proof.Gen.KernelIdeal.Skeleton
import proofs.«152660_j24068996727347_2_alg».proof.Proof.Spec
import proofs.«152660_j24068996727347_2_alg».proof.Proof.LibPlainDot
import proofs.«152660_j24068996727347_2_alg».proof.Proof.LibColumnSum
import proofs.«152660_j24068996727347_2_alg».proof.Proof.LibKeepdims
import proofs.«152660_j24068996727347_2_alg».proof.Proof.LibRank3Columns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.KernelIdeal.Facts Cert.KernelIdeal.Facts₀ Cert.Spec
open Idealize.ShloMosaic Idealize.ShloMosaic.ValueIdx Idealize.ShloMosaic.ValueKeepdims Idealize.ShloMosaic.ValueRank3Columns

/-- The first body's layer value at an entry. -/
theorem pay2_at (v0 : Vec Ideal S4000x1 .f32) (v4 v9 : Vec Ideal S4000x128 .f32) (v11 v14 : Vec Ideal S128x128 .f32)
    (v20 : Vec Ideal S1x128 .f32) (p : Fin 4000) (q : Fin 128) :
    k0_pay2 (F := Ideal) v0 v4 v9 v11 v14 v20 (ix2 p q) = layer v0 v4 v9 v11 v14 v20 p q := by
  unfold k0_pay2 layer
  simp only [matmul]
  rw [addf_apply, addf_apply]
  rw [show (dot_S4000x128_S128x128_S4000x128_1_0_0_1_n_n : DotDims S4000x128 S128x128 S4000x128) = DotDims.plain 4000 128 128 from rfl]
  rw [Cert.Lib.PlainDot.matmul_zero_apply, Cert.Lib.PlainDot.matmul_zero_apply]
  simp only [truncf_apply, shapeCast_self, divf_apply, broadcastTo_a1_ab_apply, maximumf_apply, broadcast_apply, broadcastTo_1b_ab_apply]
  rfl

/-- What the first body stores as the layer, rounded to the shorter format: the same number. -/
theorem pay3_at (v0 : Vec Ideal S4000x1 .f32) (v4 v9 : Vec Ideal S4000x128 .f32) (v11 v14 : Vec Ideal S128x128 .f32)
    (v20 : Vec Ideal S1x128 .f32) (p : Fin 4000) (q : Fin 128) :
    k0_pay3 (F := Ideal) v0 v4 v9 v11 v14 v20 (ix2 p q) = layer v0 v4 v9 v11 v14 v20 p q := by
  unfold k0_pay3
  rw [truncf_apply]
  exact pay2_at v0 v4 v9 v11 v14 v20 p q

/-- The block's column sums of the layer: at column `q`, the sum over the block's 4000 rows. -/
theorem pay4_at (v0 : Vec Ideal S4000x1 .f32) (v4 v9 : Vec Ideal S4000x128 .f32) (v11 v14 : Vec Ideal S128x128 .f32)
    (v20 : Vec Ideal S1x128 .f32) (u v : Fin 1) (q : Fin 128) :
    k0_pay4 (F := Ideal) v0 v4 v9 v11 v14 v20 (ix3 u v q) = ∑ r : Fin 4000, layer v0 v4 v9 v11 v14 v20 r q := by
  unfold k0_pay4
  rw [shapeCast_1c_11c_apply, shapeCast_a_1a_apply, colSum_at]
  exact Finset.sum_congr rfl fun r _ => pay2_at v0 v4 v9 v11 v14 v20 r q

/-- The block's column sums of the layer's square. -/
theorem pay15_at (v0 : Vec Ideal S4000x1 .f32) (v4 v9 : Vec Ideal S4000x128 .f32) (v11 v14 : Vec Ideal S128x128 .f32)
    (v20 : Vec Ideal S1x128 .f32) (u v : Fin 1) (q : Fin 128) :
    k0_pay1 (F := Ideal) (k0_pay5 (F := Ideal) v0 v4 v9 v11 v14 v20) (ix3 u v q)
      = ∑ r : Fin 4000, layer v0 v4 v9 v11 v14 v20 r q * layer v0 v4 v9 v11 v14 v20 r q := by
  unfold k0_pay1 k0_pay5
  rw [shapeCast_1c_11c_apply, shapeCast_a_1a_apply, colSum_at]
  refine Finset.sum_congr rfl fun r _ => ?_
  rw [mulf_apply, pay2_at]

/-- The second body at an entry: the affine map, then the leaky rectifier. -/
theorem pay_out_at (v0 : Vec Ideal S4000x128 .bf16) (v3 v7 : Vec Ideal S1x128 .f32) (p : Fin 4000) (q : Fin 128) :
    k1_pay1 (F := Ideal) v0 v3 v7 (ix2 p q) = leaky (v0 (ix2 p q) * v3 (ix2 (0 : Fin 1) q) + v7 (ix2 (0 : Fin 1) q)) := by
  unfold k1_pay1 leaky
  rw [select_apply, cmpf_apply, mulf_apply, addf_apply, mulf_apply, broadcast_apply, broadcast_apply]
  simp only [extf_apply, shapeCast_self, broadcastTo_1b_ab_apply]
  rfl

end Cert.KernelIdeal.Payload

end
-- ==== Proof.Region1.lean ====
/-
  The second pallas_call's output array after its 25 grid points, as a function of the arrays it finds.

  Point t stages rows 4000·t … 4000·t + 3999 of the layer's array and the scale and bias rows whole, and writes back, as
  block t of the output, the affine map followed by the leaky rectifier on those rows. The blocks tile the output.
-/
import proofs.«152660_j24068996727347_2_alg».proof.Proof.Gen.KernelIdeal.Frame
import proofs.«152660_j24068996727347_2_alg».proof.Proof.Payload

set_option maxRecDepth 16384

noncomputable section

namespace Cert.KernelIdeal.Region1

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the 25 grid points: the layer's rows and the output's move with the point, the
    scale and bias rows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t` is row `4000·t + p` of the array. -/
abbrev row (t : Fin cfg1.N) (p : Fin 4000) : Fin 100000 := ⟨t.val * 4000 + p.val, by
  have ht : t.val < 25 := t.isLt
  have hp := p.isLt
  omega⟩

theorem blk0_at (c : Dev nD) (t : Fin cfg1.N) (p : Fin 4000) (q : Fin 128) :
    iblk1 V c 0 t (ix2 p q) = (V c main_v24_0 : S100000x128.Idx → EReal) (ix2 (row t p) q) := by
  obtain ⟨e0, e1, -⟩ := idx_facts t
  show (V c main_v24_0 : S100000x128.Idx → EReal) (((cfg1.win 0).blk t).view.emb (ix2 p q)) = _
  refine congrArg _ (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * q.val = q.val; rw [e1]; omega

theorem blk1_at (c : Dev nD) (t : Fin cfg1.N) (u : Fin 1) (q : Fin 128) :
    iblk1 V c 1 t (ix2 u q) = (V c main_v43 : S1x128.Idx → EReal) (ix2 u q) := by
  obtain ⟨-, -, e0, e1, -⟩ := idx_facts t
  show (V c main_v43 : S1x128.Idx → EReal) (((cfg1.win 1).blk t).view.emb (ix2 u q)) = _
  refine congrArg _ (funext fun a => Fin.ext ?_)
  match a with
  | ⟨0, _⟩ => show win1_1.index t (0 : Fin 2) * 1 + 1 * u.val = u.val; rw [e0]; omega
  | ⟨1, _⟩ => show win1_1.index t (1 : Fin 2) * 128 + 1 * q.val = q.val; rw [e1]; omega

theorem blk2_at (c : Dev nD) (t : Fin cfg1.N) (u : Fin 1) (q : Fin 128) :
    iblk1 V c 2 t (ix2 u q) = (V c main_v44 : S1x128.Idx → EReal) (ix2 u q) := by
  obtain ⟨-, -, -, -, e0, e1, -⟩ := idx_facts t
  show (V c main_v44 : S1x128.Idx → EReal) (((cfg1.win 2).blk t).view.emb (ix2 u q)) = _
  refine congrArg _ (funext fun a => Fin.ext ?_)
  match a with
  | ⟨0, _⟩ => show win1_2.index t (0 : Fin 2) * 1 + 1 * u.val = u.val; rw [e0]; omega
  | ⟨1, _⟩ => show win1_2.index t (1 : Fin 2) * 128 + 1 * q.val = q.val; rw [e1]; omega

/-- The rectified affine image of the layer's entry at node `i`, feature `j`, from the layer's array and the scale and bias rows. -/
def affineAt (h : S100000x128.Idx → EReal) (s b : S1x128.Idx → EReal) (i : Fin 100000) (j : Fin 128) : EReal :=
  leaky (h (ix2 i j) * s (ix2 (0 : Fin 1) j) + b (ix2 (0 : Fin 1) j))

/-- The output array. -/
def OUT (c : Dev nD) : S100000x128.Idx → EReal := fun i =>
  affineAt (V c main_v24_0) (V c main_v43) (V c main_v44) ⟨(i 0).val, idx2_lt0 i⟩ ⟨(i 1).val, idx2_lt1 i⟩

theorem OUT_at (c : Dev nD) (i : Fin 100000) (j : Fin 128) :
    OUT V c (ix2 i j) = affineAt (V c main_v24_0) (V c main_v43) (V c main_v44) i j := rfl

theorem flushed3_eq (c : Dev nD) (t : Fin cfg1.N) :
    (dat1 V c).flushed 3 t = ((cfg1.win 3).blk t).view.read (Elt Ideal) (OUT V c) := by
  show (cfg1.win 3).cut (grid1.coords t) ((dat1 V c).after 3 t) = _
  rw [after1_3]
  unfold out1_3
  rw [View.canon_unit_zero hz2]
  simp only [View.ld_unit_zero (S := S4000x128) hz2, View.ld_unit_zero (S := S1x128) hz2]
  funext y
  obtain ⟨p, q, rfl⟩ : ∃ (p : Fin 4000) (q : Fin 128), y = ix2 p q := ⟨y 0, y 1, eq_ix2 y⟩
  refine (pay_out_at _ _ _ p q).trans ?_
  rw [blk0_at, blk1_at, blk2_at]
  refine (show _ = affineAt (V c main_v24_0) (V c main_v43) (V c main_v44) (row t p) q from rfl).trans ?_
  refine (OUT_at V c (row t p) q).symm.trans ?_
  obtain ⟨-, -, -, -, -, -, e0, e1⟩ := idx_facts t
  show OUT V c (ix2 (row t p) q) = OUT V c (((cfg1.win 3).blk t).view.emb (ix2 p q))
  refine congrArg _ (funext fun a => Fin.ext ?_)
  match a with
  | ⟨0, _⟩ => show t.val * 4000 + p.val = win1_3.index t (0 : Fin 2) * 4000 + 1 * p.val; rw [e0]; omega
  | ⟨1, _⟩ => show q.val = win1_3.index t (1 : Fin 2) * 128 + 1 * q.val; rw [e1]; omega

theorem mem_blk3 (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v45).slice (win1_3.rect t)).set ↔ _
  rw [View.set_slice_whole, Rect.mem_set_unit]
  exact Iff.rfl

theorem cover3 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 4000, by show (i 0).val / 4000 < 25; omega⟩
  obtain ⟨-, -, -, -, -, -, e0, e1⟩ := idx_facts t
  have ht : t.val = (i 0).val / 4000 := rfl
  refine ⟨t, flush1_3 t, ?_⟩
  rw [mem_blk3]
  intro a
  match a with
  | ⟨0, _⟩ => show win1_3.index t (0 : Fin 2) * 4000 ≤ (i 0).val ∧ (i 0).val < win1_3.index t (0 : Fin 2) * 4000 + 4000; rw [e0, ht]; omega
  | ⟨1, _⟩ => show win1_3.index t (1 : Fin 2) * 128 ≤ (i 1).val ∧ (i 1).val < win1_3.index t (1 : Fin 2) * 128 + 128; rw [e1]; omega

/-- The output array after the call. -/
theorem out_final (c : Dev nD) : (dat1 V c).arrAt 3 cfg1.N = OUT V c :=
  (dat1 V c).arrAt_eq_of_cover 3 (OUT V c) (fun t _ => flushed3_eq V c t) cover3

end Cert.KernelIdeal.Region1

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.Region0.lean ====
/-
  The first pallas_call's three output arrays after its 25 grid points, as functions of the arrays it finds.

  Point t stages rows 4000·t … 4000·t + 3999 of the message sums, of the counts and of the node features, and the two
  weights and the bias row whole; it writes back the layer on those rows (block t of the [100000,128] output) and, as
  block t of the two [25,1,128] outputs, the block's column sums of the layer and of its square. The blocks tile each
  output, so each output array ends as one function of the inputs, index by index.
-/
import proofs.«152660_j24068996727347_2_alg».proof.Proof.Gen.KernelIdeal.Frame
import proofs.«152660_j24068996727347_2_alg».proof.Proof.Payload
import proofs.«152660_j24068996727347_2_alg».proof.Proof.LibBlockSum

set_option maxRecDepth 16384

noncomputable section

namespace Cert.KernelIdeal.Region0

open Cert.KernelIdeal Cert.KernelIdeal.Gen Cert.KernelIdeal.Payload Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 25 grid points: the row-blocked windows move with the point, the weights
    and the bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- Row `p` of block `t` is row `4000·t + p` of the array. -/
abbrev row (t : Fin cfg0.N) (p : Fin 4000) : Fin 100000 := ⟨t.val * 4000 + p.val, by
  have ht : t.val < 25 := t.isLt
  have hp := p.isLt
  omega⟩

/-! ## The input windows' blocks, read where the array has them -/

theorem blk0_at (c : Dev nD) (t : Fin cfg0.N) (p : Fin 4000) (k : Fin 128) :
    iblk0 V c 0 t (ix2 p k) = (V c main_v15 : S100000x128.Idx → EReal) (ix2 (row t p) k) := by
  obtain ⟨e0, e1, -⟩ := idx_facts t
  show (V c main_v15 : S100000x128.Idx → EReal) (((cfg0.win 0).blk t).view.emb (ix2 p k)) = _
  refine congrArg _ (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

theorem blk1_at (c : Dev nD) (t : Fin cfg0.N) (p : Fin 4000) (u : Fin 1) :
    iblk0 V c 1 t (ix2 p u) = (V c main_v20 : S100000x1.Idx → EReal) (ix2 (row t p) u) := by
  obtain ⟨-, -, e0, e1, -⟩ := idx_facts t
  show (V c main_v20 : S100000x1.Idx → EReal) (((cfg0.win 1).blk t).view.emb (ix2 p u)) = _
  refine congrArg _ (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 1 + 1 * u.val = u.val; rw [e1]; omega

theorem blk2_at (c : Dev nD) (t : Fin cfg0.N) (p : Fin 4000) (k : Fin 128) :
    iblk0 V c 2 t (ix2 p k) = (V c main_arg0 : S100000x128.Idx → EReal) (ix2 (row t p) k) := by
  obtain ⟨-, -, -, -, e0, e1, -⟩ := idx_facts t
  show (V c main_arg0 : S100000x128.Idx → EReal) (((cfg0.win 2).blk t).view.emb (ix2 p k)) = _
  refine congrArg _ (funext fun a => Fin.ext ?_)
  match a with
  | ⟨0, _⟩ => show win0_2.index t (0 : Fin 2) * 4000 + 1 * p.val = t.val * 4000 + p.val; rw [e0]; omega
  | ⟨1, _⟩ => show win0_2.index t (1 : Fin 2) * 128 + 1 * k.val = k.val; rw [e1]; omega

theorem blk3_at (c : Dev nD) (t : Fin cfg0.N) (k q : Fin 128) :
    iblk0 V c 3 t (ix2 k q) = (V c main_v21 : S128x128.Idx → EReal) (ix2 k q) := by
  obtain ⟨-, -, -, -, -, -, e0, e1, -⟩ := idx_facts t
  show (V c main_v21 : S128x128.Idx → EReal) (((cfg0.win 3).blk t).view.emb (ix2 k q)) = _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem blk4_at (c : Dev nD) (t : Fin cfg0.N) (u : Fin 1) (q : Fin 128) :
    iblk0 V c 4 t (ix2 u q) = (V c main_v23 : S1x128.Idx → EReal) (ix2 u q) := by
  obtain ⟨-, -, -, -, -, -, -, -, e0, e1, -⟩ := idx_facts t
  show (V c main_v23 : S1x128.Idx → EReal) (((cfg0.win 4).blk t).view.emb (ix2 u q)) = _
  refine congrArg _ (funext fun a => Fin.ext ?_)
  match a with
  | ⟨0, _⟩ => show win0_4.index t (0 : Fin 2) * 1 + 1 * u.val = u.val; rw [e0]; omega
  | ⟨1, _⟩ => show win0_4.index t (1 : Fin 2) * 128 + 1 * q.val = q.val; rw [e1]; omega

theorem blk5_at (c : Dev nD) (t : Fin cfg0.N) (k q : Fin 128) :
    iblk0 V c 5 t (ix2 k q) = (V c main_v22 : S128x128.Idx → EReal) (ix2 k q) := by
  obtain ⟨-, -, -, -, -, -, -, -, -, -, e0, e1, -⟩ := idx_facts t
  show (V c main_v22 : S128x128.Idx → EReal) (((cfg0.win 5).blk t).view.emb (ix2 k q)) = _
  refine congrArg _ (funext fun a => Fin.ext ?_)
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-! ## The layer over the whole arrays -/

/-- The layer's array: at node `i`, feature `j`, the specification's layer of the arrays the pallas_call finds. -/
def H (c : Dev nD) : S100000x128.Idx → EReal := fun i =>
  layer (V c main_v20 : S100000x1.Idx → EReal) (V c main_v15 : S100000x128.Idx → EReal) (V c main_arg0 : S100000x128.Idx → EReal)
    (V c main_v21 : S128x128.Idx → EReal) (V c main_v22 : S128x128.Idx → EReal) (V c main_v23 : S1x128.Idx → EReal)
    ⟨(i 0).val, idx2_lt0 i⟩ ⟨(i 1).val, idx2_lt1 i⟩

theorem H_at (c : Dev nD) (i : Fin 100000) (j : Fin 128) :
    H V c (ix2 i j) = layer (V c main_v20 : S100000x1.Idx → EReal) (V c main_v15 : S100000x128.Idx → EReal) (V c main_arg0 : S100000x128.Idx → EReal)
      (V c main_v21 : S128x128.Idx → EReal) (V c main_v22 : S128x128.Idx → EReal) (V c main_v23 : S1x128.Idx → EReal) i j := rfl

/-- The layer on the blocks point `t` stages is the layer of the arrays at the block's rows. -/
theorem layer_blk (c : Dev nD) (t : Fin cfg0.N) (p : Fin 4000) (q : Fin 128) :
    layer (iblk0 V c 1 t : S4000x1.Idx → EReal) (iblk0 V c 0 t : S4000x128.Idx → EReal) (iblk0 V c 2 t : S4000x128.Idx → EReal)
      (iblk0 V c 3 t : S128x128.Idx → EReal) (iblk0 V c 5 t : S128x128.Idx → EReal) (iblk0 V c 4 t : S1x128.Idx → EReal) p q
      = H V c (ix2 (row t p) q) := by
  rw [H_at]
  unfold layer
  simp only [blk0_at, blk1_at, blk2_at, blk3_at, blk4_at, blk5_at]

/-- The per-block column sums of the layer, and of its square, as [25,1,128] arrays. -/
def S1 (c : Dev nD) : S25x1x128.Idx → EReal := fun i =>
  ∑ r : Fin 4000, H V c (ix2 (row ⟨(i 0).val, (i 0).isLt⟩ r) ⟨(i 2).val, (i 2).isLt⟩)
def S2 (c : Dev nD) : S25x1x128.Idx → EReal := fun i =>
  ∑ r : Fin 4000, H V c (ix2 (row ⟨(i 0).val, (i 0).isLt⟩ r) ⟨(i 2).val, (i 2).isLt⟩)
    * H V c (ix2 (row ⟨(i 0).val, (i 0).isLt⟩ r) ⟨(i 2).val, (i 2).isLt⟩)

theorem S1_at (c : Dev nD) (t : Fin 25) (u : Fin 1) (q : Fin 128) :
    S1 V c (ix3 t u q) = ∑ r : Fin 4000, H V c (ix2 (row t r) q) := rfl
theorem S2_at (c : Dev nD) (t : Fin 25) (u : Fin 1) (q : Fin 128) :
    S2 V c (ix3 t u q) = ∑ r : Fin 4000, H V c (ix2 (row t r) q) * H V c (ix2 (row t r) q) := rfl

/-! ## What each point writes back -/

theorem flushed6_eq (c : Dev nD) (t : Fin cfg0.N) :
    (dat0 V c).flushed 6 t = ((cfg0.win 6).blk t).view.read (Elt Ideal) (H V c) := by
  show (cfg0.win 6).cut (grid0.coords t) ((dat0 V c).after 6 t) = _
  rw [after0_6]
  unfold out0_6
  rw [View.canon_unit_zero hz2]
  simp only [View.ld_unit_zero (S := S4000x128) hz2, View.ld_unit_zero (S := S4000x1) hz2, View.ld_unit_zero (S := S128x128) hz2,
    View.ld_unit_zero (S := S1x128) hz2]
  funext y
  obtain ⟨p, q, rfl⟩ : ∃ (p : Fin 4000) (q : Fin 128), y = ix2 p q := ⟨y 0, y 1, eq_ix2 y⟩
  refine (pay3_at _ _ _ _ _ _ p q).trans ?_
  refine (layer_blk V c t p q).trans ?_
  obtain ⟨-, -, -, -, -, -, -, -, -, -, -, -, e0, e1, -⟩ := idx_facts t
  show H V c (ix2 (row t p) q) = H V c (((cfg0.win 6).blk t).view.emb (ix2 p q))
  refine congrArg _ (funext fun a => Fin.ext ?_)
  match a with
  | ⟨0, _⟩ => show t.val * 4000 + p.val = win0_6.index t (0 : Fin 2) * 4000 + 1 * p.val; rw [e0]; omega
  | ⟨1, _⟩ => show q.val = win0_6.index t (1 : Fin 2) * 128 + 1 * q.val; rw [e1]; omega

theorem flushed7_eq (c : Dev nD) (t : Fin cfg0.N) :
    (dat0 V c).flushed 7 t = ((cfg0.win 7).blk t).view.read (Elt Ideal) (S1 V c) := by
  show (cfg0.win 7).cut (grid0.coords t) ((dat0 V c).after 7 t) = _
  rw [after0_7]
  unfold out0_7
  rw [View.canon_unit_zero hz3]
  simp only [View.ld_unit_zero (S := S4000x128) hz2, View.ld_unit_zero (S := S4000x1) hz2, View.ld_unit_zero (S := S128x128) hz2,
    View.ld_unit_zero (S := S1x128) hz2]
  funext y
  obtain ⟨u, v, q, rfl⟩ : ∃ (u v : Fin 1) (q : Fin 128), y = ix3 u v q := ⟨y 0, y 1, y 2, eq_ix3 y⟩
  refine (pay4_at _ _ _ _ _ _ u v q).trans ?_
  refine (Finset.sum_congr rfl fun r _ => layer_blk V c t r q).trans ?_
  obtain ⟨-, -, -, -, -, -, -, -, -, -, -, -, -, -, e0, e1, e2, -⟩ := idx_facts t
  refine (S1_at V c ⟨t.val, t.isLt⟩ v q).symm.trans ?_
  show S1 V c (ix3 (⟨t.val, t.isLt⟩ : Fin 25) v q) = S1 V c (((cfg0.win 7).blk t).view.emb (ix3 u v q))
  refine congrArg _ (funext fun a => Fin.ext ?_)
  have hu : u.val = 0 := by omega
  match a with
  | ⟨0, _⟩ => show t.val = win0_7.index t (0 : Fin 3) * 1 + 1 * u.val; rw [e0]; omega
  | ⟨1, _⟩ => show v.val = win0_7.index t (1 : Fin 3) * 1 + 1 * v.val; rw [e1]; omega
  | ⟨2, _⟩ => show q.val = win0_7.index t (2 : Fin 3) * 128 + 1 * q.val; rw [e2]; omega

theorem flushed8_eq (c : Dev nD) (t : Fin cfg0.N) :
    (dat0 V c).flushed 8 t = ((cfg0.win 8).blk t).view.read (Elt Ideal) (S2 V c) := by
  show (cfg0.win 8).cut (grid0.coords t) ((dat0 V c).after 8 t) = _
  rw [after0_8]
  unfold out0_8
  rw [View.canon_unit_zero hz3]
  simp only [View.ld_unit_zero (S := S4000x128) hz2, View.ld_unit_zero (S := S4000x1) hz2, View.ld_unit_zero (S := S128x128) hz2,
    View.ld_unit_zero (S := S1x128) hz2]
  funext y
  obtain ⟨u, v, q, rfl⟩ : ∃ (u v : Fin 1) (q : Fin 128), y = ix3 u v q := ⟨y 0, y 1, y 2, eq_ix3 y⟩
  refine (pay15_at _ _ _ _ _ _ u v q).trans ?_
  refine (Finset.sum_congr rfl fun r _ => by rw [layer_blk V c t r q]).trans ?_
  obtain ⟨-, -, -, -, -, -, -, -, -, -, -, -, -, -, -, -, -, e0, e1, e2⟩ := idx_facts t
  refine (S2_at V c ⟨t.val, t.isLt⟩ v q).symm.trans ?_
  show S2 V c (ix3 (⟨t.val, t.isLt⟩ : Fin 25) v q) = S2 V c (((cfg0.win 8).blk t).view.emb (ix3 u v q))
  refine congrArg _ (funext fun a => Fin.ext ?_)
  have hu : u.val = 0 := by omega
  match a with
  | ⟨0, _⟩ => show t.val = win0_8.index t (0 : Fin 3) * 1 + 1 * u.val; rw [e0]; omega
  | ⟨1, _⟩ => show v.val = win0_8.index t (1 : Fin 3) * 1 + 1 * v.val; rw [e1]; omega
  | ⟨2, _⟩ => show q.val = win0_8.index t (2 : Fin 3) * 128 + 1 * q.val; rw [e2]; omega

/-! ## The blocks tile each output -/

theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v24_0).slice (win0_6.rect t)).set ↔ _
  rw [View.set_slice_whole, Rect.mem_set_unit]
  exact Iff.rfl

theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  let t : Fin cfg0.N := ⟨(i 0).val / 4000, by show (i 0).val / 4000 < 25; omega⟩
  obtain ⟨-, -, -, -, -, -, -, -, -, -, -, -, e0, e1, -⟩ := idx_facts t
  have ht : t.val = (i 0).val / 4000 := rfl
  refine ⟨t, flush0_6 t, ?_⟩
  rw [mem_blk6]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 128 ≤ (i 1).val ∧ (i 1).val < win0_6.index t (1 : Fin 2) * 128 + 128; rw [e1]; omega

theorem mem_blk7 (t : Fin cfg0.N) (i : S25x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v24_1).slice (win0_7.rect t)).set ↔ _
  rw [View.set_slice_whole, Rect.mem_set_unit]
  exact Iff.rfl

theorem cover7 (i : S25x1x128.Idx) : ∃ t : Fin cfg0.N, (cfg0.win 7).flush t = true ∧ i ∈ ((cfg0.win 7).blk t).view.set := by
  have hi0 : (i 0).val < 25 := (i 0).isLt
  have hi1 : (i 1).val < 1 := (i 1).isLt
  have hi2 : (i 2).val < 128 := (i 2).isLt
  let t : Fin cfg0.N := ⟨(i 0).val, hi0⟩
  obtain ⟨-, -, -, -, -, -, -, -, -, -, -, -, -, -, e0, e1, e2, -⟩ := idx_facts t
  have ht : t.val = (i 0).val := rfl
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; rw [e0, ht]; omega
  | ⟨1, _⟩ => show win0_7.index t (1 : Fin 3) * 1 ≤ (i 1).val ∧ (i 1).val < win0_7.index t (1 : Fin 3) * 1 + 1; rw [e1]; omega
  | ⟨2, _⟩ => show win0_7.index t (2 : Fin 3) * 128 ≤ (i 2).val ∧ (i 2).val < win0_7.index t (2 : Fin 3) * 128 + 128; rw [e2]; omega

theorem mem_blk8 (t : Fin cfg0.N) (i : S25x1x128.Idx) :
    i ∈ ((cfg0.win 8).blk t).view.set ↔ ∀ a : Fin 3, win0_8.index t a * S1x1x128.size a ≤ (i a).val ∧ (i a).val < win0_8.index t a * S1x1x128.size a + S1x1x128.size a := by
  show i ∈ ((View.whole main_v24_2).slice (win0_8.rect t)).set ↔ _
  rw [View.set_slice_whole, Rect.mem_set_unit]
  exact Iff.rfl

theorem cover8 (i : S25x1x128.Idx) : ∃ t : Fin cfg0.N, (cfg0.win 8).flush t = true ∧ i ∈ ((cfg0.win 8).blk t).view.set := by
  have hi0 : (i 0).val < 25 := (i 0).isLt
  have hi1 : (i 1).val < 1 := (i 1).isLt
  have hi2 : (i 2).val < 128 := (i 2).isLt
  let t : Fin cfg0.N := ⟨(i 0).val, hi0⟩
  obtain ⟨-, -, -, -, -, -, -, -, -, -, -, -, -, -, -, -, -, e0, e1, e2⟩ := idx_facts t
  have ht : t.val = (i 0).val := rfl
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; rw [e0, ht]; omega
  | ⟨1, _⟩ => show win0_8.index t (1 : Fin 3) * 1 ≤ (i 1).val ∧ (i 1).val < win0_8.index t (1 : Fin 3) * 1 + 1; rw [e1]; omega
  | ⟨2, _⟩ => show win0_8.index t (2 : Fin 3) * 128 ≤ (i 2).val ∧ (i 2).val < win0_8.index t (2 : Fin 3) * 128 + 128; rw [e2]; omega

/-! ## The three arrays after the call -/

theorem h_final (c : Dev nD) : (dat0 V c).arrAt 6 cfg0.N = H V c :=
  (dat0 V c).arrAt_eq_of_cover 6 (H V c) (fun t _ => flushed6_eq V c t) cover6
theorem s1_final (c : Dev nD) : (dat0 V c).arrAt 7 cfg0.N = S1 V c :=
  (dat0 V c).arrAt_eq_of_cover 7 (S1 V c) (fun t _ => flushed7_eq V c t) cover7
theorem s2_final (c : Dev nD) : (dat0 V c).arrAt 8 cfg0.N = S2 V c :=
  (dat0 V c).arrAt_eq_of_cover 8 (S2 V c) (fun t _ => flushed8_eq V c t) cover8

end Cert.KernelIdeal.Region0

end
-- ==== Proof.LibRank3Layout.lean ====
/-
  Rank-3 layout operations read at coordinates: what a body that spreads two matrices and a vector over a
  three-axis block, and flattens that block's two leading axes into the rows of a matrix product, needs.

  * an [a, c] matrix given a unit middle axis, [a, 1, c], and spread along it to [a, b, c]: entry (i, j, k) is the
    matrix's (i, k);
  * a [b, c] matrix given a unit leading axis, [1, b, c] (the library's `shapeCast_ab_1ab_apply`), and spread along it
    to [a, b, c]: entry (i, j, k) is the matrix's (j, k);
  * a vector [c] given two unit leading axes, [1, 1, c], and spread to [a, b, c]: entry (i, j, k) is the vector's k;
  * an [a, b, c] block read as the matrix [a·b, c] and back: row `i·b + j` of the matrix is the block's (i, j).

  All are general in the extents; the flattened row count is any `m` with the row given as `p = i·b + j`.
-/
import Idealize.ShloMosaic.Lib.ValueIdx
import Idealize.ShloMosaic.Lib.Pipeline.Value

namespace Idealize.ShloMosaic.ValueRank3

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A vector `[c]` cast to `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; omega)

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, b, c]` block cast to a matrix `[m, c]` reads, at row `p = i·b + j` and column `k`, the block at `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (p : Fin m)
    (hp : p.val = i.val * b + j.val) :
    shapeCast ⟨2, ![m, c]⟩ x h (ix2 p k) = x (ix3 i j k) :=
  shapeCast_apply x h _ _ (by
    rw [Shape.rowMajor_val_three, Shape.rowMajor_val_two]
    show (i.val * b + j.val) * c + k.val = p.val * c + k.val
    rw [hp])

/-- A matrix `[m, c]` cast to an `[a, b, c]` block reads, at `(i, j, k)`, the matrix at row `p = i·b + j`, column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (p : Fin m)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueRank3
-- ==== Proof.HostMid.lean ====
/-
  The host stretch between the two passes turns the partial sums into the BatchNorm scale and bias rows.

  The first pass leaves, beside the layer's values, two `[25, 1, 128]` blocks: for each of the 25 row blocks and each
  feature, the block's sum of the layer's values and of their squares. The stretch adds the 25 partial sums of each
  (from the constant 0) into the totals t₁ and t₂, forms the mean μ = t₁/N and the guarded variance
  max(t₂/N − μ·μ, 0), then the scale γ·rsqrt(var + ε) and the bias β − μ·scale, and hands both to the second pass as
  `[1, 128]` rows. It writes nothing into the layer's values.
-/
import proofs.«152660_j24068996727347_2_alg».proof.Proof.Gen.KernelIdeal.Launch
import proofs.«152660_j24068996727347_2_alg».proof.Proof.Spec
import proofs.«152660_j24068996727347_2_alg».proof.Proof.LibRank3Layout
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostMid

open Cert.KernelIdeal Cert.KernelIdeal.Gen Cert.Spec Idealize.ShloMosaic Idealize.ShloMosaic.ValueIdx Idealize.SL.Sem

/-- The arrays a valuation holds that the stretch reads, as arrays of extended reals: the two `[25, 1, 128]` blocks of
    partial sums (of the layer's values and of their squares), the gain and the offset. -/
def part1 (W : Valuation τ sig (Elt Ideal)) : S25x1x128.Idx → EReal := W (Proc.devRef .tc main_v24_1)
def part2 (W : Valuation τ sig (Elt Ideal)) : S25x1x128.Idx → EReal := W (Proc.devRef .tc main_v24_2)
def gain (W : Valuation τ sig (Elt Ideal)) : S128.Idx → EReal := W (Proc.devRef .tc main_arg5)
def offset (W : Valuation τ sig (Elt Ideal)) : S128.Idx → EReal := W (Proc.devRef .tc main_arg6)

/-! ## The column totals -/

/-- The column totals of a `[25, 1, 128]` block read through its `[25, 128]` matrix view: the sum over the rows, from the
    constant 0, at column `q` is `0 + ∑ₜ B[t, 0, q]` — row `t` of the view is the block's `(t, 0)`. -/
theorem total_apply (B : S25x1x128.Idx → EReal) (q : Fin 128) :
    Host.reduceAdd (F := Ideal) (fun i => shapeCast S25x128 B shapeCasts_S25x1x128_S25x128 i)
        (constant S_ .f32 0x00000000#32) reducesTo_S25x128_S128_d0 h_S_ (ix1 q)
      = zeroW + ∑ t : Fin 25, B (ix3 t (0 : Fin 1) q) := by
  simp only [Host.reduceAdd, Ideal.hostReduceAdd_def]
  rw [Ideal.hostReduceAdd_single reducesTo_S25x128_S128_d0 (by decide)]
  refine congrArg (_ + ·) (Finset.sum_congr rfl fun k _ => ?_)
  refine Eq.trans ?_ (ValueRank3.shapeCast_abc_mc_apply (a := 25) (b := 1) (c := 128) (m := 25) B
    shapeCasts_S25x1x128_S25x128 k (0 : Fin 1) q k (by simp))
  exact congrArg (shapeCast S25x128 B shapeCasts_S25x1x128_S25x128)
    (funext fun a => Fin.ext (by match a with | ⟨0, _⟩ => rfl | ⟨1, _⟩ => rfl))

/-! ## The scale and the bias rows -/

/-- The scale row after the stretch: at column `q` it is the gain times the reciprocal square root of the guarded
    variance, from the two column totals `t₁ = 0 + ∑ₜ s₁[t, 0, q]` and `t₂ = 0 + ∑ₜ s₂[t, 0, q]` of the partial sums. -/
theorem mid_scale (W : Valuation τ sig (Elt Ideal)) (u : Fin 1) (q : Fin 128) :
    (StableHlo.after (hostOps1 (F := Ideal)) W (Proc.devRef .tc main_v43) : S1x128.Idx → EReal) (ix2 u q)
      = scaleOf (zeroW + ∑ t : Fin 25, part1 W (ix3 t (0 : Fin 1) q))
          (zeroW + ∑ t : Fin 25, part2 W (ix3 t (0 : Fin 1) q)) (gain W (ix1 q)) := by
  after_results_simp
  refine (shapeCast_a_1a_apply (a := 128) _ _ u q).trans ?_
  rw [← total_apply (part1 W) q, ← total_apply (part2 W) q]
  rfl

/-- The bias row after the stretch: at column `q` it is the offset minus the mean times the scale. -/
theorem mid_bias (W : Valuation τ sig (Elt Ideal)) (u : Fin 1) (q : Fin 128) :
    (StableHlo.after (hostOps1 (F := Ideal)) W (Proc.devRef .tc main_v44) : S1x128.Idx → EReal) (ix2 u q)
      = biasOf (zeroW + ∑ t : Fin 25, part1 W (ix3 t (0 : Fin 1) q))
          (zeroW + ∑ t : Fin 25, part2 W (ix3 t (0 : Fin 1) q)) (gain W (ix1 q)) (offset W (ix1 q)) := by
  after_results_simp
  refine (shapeCast_a_1a_apply (a := 128) _ _ u q).trans ?_
  rw [← total_apply (part1 W) q, ← total_apply (part2 W) q]
  rfl

/-! ## What the stretch leaves alone -/

/-- No operation of the stretch writes the first pass's main output: it holds what it held. -/
theorem mid_keep (W : Valuation τ sig (Elt Ideal)) :
    StableHlo.after (hostOps1 (F := Ideal)) W (Proc.devRef .tc main_v24_0) = W (Proc.devRef .tc main_v24_0) :=
  StableHlo.after_of_forall_not_mem (b := Proc.devRef .tc main_v24_0) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

end Cert.KernelIdeal.HostMid

end
-- ==== Proof.HostPre.lean ====
/-
  The kernel's host prologue computes what the reference's does.

  Both programs begin with the same lines: the two rows of the edge list, the source indices wrapped into range, the
  neighbours' features gathered and summed into their destination rows, the ones summed into the neighbour counts, and the
  two weights transposed. The kernel gathers from a copy of the features rounded to a shorter float format and widens the
  result again, which on the extended reals is the identity. So the arrays the first pallas_call finds are the reference's
  stages of the same arguments; the counts and the bias reach it reshaped to a column and a row.
-/
import proofs.«152660_j24068996727347_2_alg».proof.Proof.Gen.KernelIdeal.Launch
import proofs.«152660_j24068996727347_2_alg».proof.Proof.Gen.ReferenceIdeal.Read
import proofs.«152660_j24068996727347_2_alg».proof.Proof.LibKeepdims
import Idealize.ShloMosaic.Lib.StableHlo.Run
import Idealize.ShloMosaic.Lib.ValueIdx
import Idealize.ShloMosaic.Lib.ValueLayout

noncomputable section

namespace Cert.KernelIdeal.HostPre

open Cert.KernelIdeal Cert.KernelIdeal.Gen
open Idealize.ShloMosaic Idealize.ShloMosaic.TcCoe Idealize.ShloMosaic.ValueIdx Idealize.ShloMosaic.ValueKeepdims Idealize.SL.Sem Idealize.ShloMosaic.StableHlo

variable (W : Valuation τ sig (Elt Ideal))

/-- The message sums are the reference's scatter-add of the gathered features. -/
theorem pre_msg :
    (StableHlo.after (hostOps0 (F := Ideal)) W (Proc.devRef .tc main_v15) : S100000x128.Idx → EReal)
      = Cert.ReferenceIdeal.Read.val_main_v13 (F := Ideal) (W (Proc.devRef .tc main_arg0)) (W (Proc.devRef .tc main_arg1)) := by
  dsimp only [hostOps0]
  after_results
  rfl

/-- The neighbour counts, as the column the pallas_call stages: at `(i, 0)` the reference's count of node `i`. -/
theorem pre_cnt (i : Fin 100000) (u : Fin 1) :
    (StableHlo.after (hostOps0 (F := Ideal)) W (Proc.devRef .tc main_v20) : S100000x1.Idx → EReal) (ix2 i u)
      = Cert.ReferenceIdeal.Read.val_main_v17 (F := Ideal) (W (Proc.devRef .tc main_arg1)) (ix1 i) := by
  have e : (StableHlo.after (hostOps0 (F := Ideal)) W (Proc.devRef .tc main_v20) : S100000x1.Idx → EReal)
      = shapeCast S100000x1 (Cert.ReferenceIdeal.Read.val_main_v17 (F := Ideal) (W (Proc.devRef .tc main_arg1)))
          shapeCasts_S100000_S100000x1 := by
    dsimp only [hostOps0]
    after_results
    rfl
  rw [e]
  exact shapeCast_a_a1_apply _ _ i u

/-- The two weights, transposed as the reference transposes them. -/
theorem pre_wl :
    (StableHlo.after (hostOps0 (F := Ideal)) W (Proc.devRef .tc main_v21) : S128x128.Idx → EReal)
      = Cert.ReferenceIdeal.Read.val_main_v23 (F := Ideal) (W (Proc.devRef .tc main_arg2)) := by
  dsimp only [hostOps0]
  after_results
  rfl
theorem pre_wr :
    (StableHlo.after (hostOps0 (F := Ideal)) W (Proc.devRef .tc main_v22) : S128x128.Idx → EReal)
      = Cert.ReferenceIdeal.Read.val_main_v28 (F := Ideal) (W (Proc.devRef .tc main_arg4)) := by
  dsimp only [hostOps0]
  after_results
  rfl

/-- The bias, as the row the pallas_call stages: at `(0, j)` the bias of feature `j`. -/
theorem pre_bl (u : Fin 1) (j : Fin 128) :
    (StableHlo.after (hostOps0 (F := Ideal)) W (Proc.devRef .tc main_v23) : S1x128.Idx → EReal) (ix2 u j)
      = (W (Proc.devRef .tc main_arg3) : S128.Idx → EReal) (ix1 j) := by
  have e : (StableHlo.after (hostOps0 (F := Ideal)) W (Proc.devRef .tc main_v23) : S1x128.Idx → EReal)
      = shapeCast S1x128 (W (Proc.devRef .tc main_arg3) : S128.Idx → EReal) shapeCasts_S128_S1x128 := by
    dsimp only [hostOps0]
    after_results
    rfl
  rw [e]
  exact shapeCast_a_1a_apply _ _ u j

/-- The prologue writes none of the arguments the later segments read. -/
theorem pre_arg0 : StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_arg5 : StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem pre_arg6 : StableHlo.after (hostOps0 (F := Ideal)) W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.HostPre

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.Finite.lean ====
/-
  Finiteness of the inputs, carried to real numbers.

  The precondition "every float input is finite" tests each float argument `x` by `all (|x| < +inf)` and joins the six
  one-bit answers by `and`. On the extended reals, where the floats of this file live, it says that every entry of
  every float argument is the coercion of a real number (`pre_reals`). The rest of the file shows that being a real
  number survives what is done to those entries afterwards: a sum and a product of two (`add_real`, `mul_real`), a
  finite sum (`sum_real`), a dot product (`dot_real`), a gather (it only selects entries: `gather_real`), an
  accumulating scatter (an entry plus a finite sum of update entries: `scatterAdd_real`), and a division by
  `max c 1`, which is a real number at least 1 and so never zero (`div_max_one_real`).

  Why this matters: cancellation `a - a = 0` and distributivity `a * (b + c) = a * b + a * c` hold for real numbers
  and fail at the infinities of the extended reals, so an argument that uses them must first know that every number it
  meets is a real.
-/
import proofs.«152660_j24068996727347_2_alg».proof.Pre_finite_inputs
import proofs.«152660_j24068996727347_2_alg».proof.Proof.LibFiniteEntry
import proofs.«152660_j24068996727347_2_alg».proof.Proof.LibERealSum
import Idealize.ShloMosaic.Lib.ReduceAll
import Idealize.ShloMosaic.Lib.ValueIdx
import Idealize.ShloMosaic.PureOps.Ideal

noncomputable section

namespace Cert.Finite

open Idealize.ShloMosaic

/-! ## Real numbers are closed under the arithmetic used -/

/-- The sum of two real numbers is a real number. -/
theorem add_real (a b : EReal) (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The product of two real numbers is a real number. -/
theorem mul_real (a b : EReal) (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A finite sum of real numbers is a real number: choose the real behind each term and sum those. -/
theorem sum_real {ι : Type*} (S : Finset ι) (f : ι → EReal) (hf : ∀ i ∈ S, ∃ r : ℝ, f i = (r : EReal)) :
    ∃ r : ℝ, ∑ i ∈ S, f i = (r : EReal) := by
  classical
  choose! g hg using hf
  refine ⟨∑ i ∈ S, g i, ?_⟩
  rw [Cert.Lib.ERealSum.coe_sum]
  exact Finset.sum_congr rfl hg

/-- A dot product of two families of real numbers is a real number. -/
theorem dot_real {ι : Type*} [Fintype ι] (a b : ι → EReal) (ha : ∀ k, ∃ r : ℝ, a k = (r : EReal))
    (hb : ∀ k, ∃ r : ℝ, b k = (r : EReal)) : ∃ r : ℝ, ∑ k, a k * b k = (r : EReal) :=
  sum_real Finset.univ _ fun k _ => mul_real _ _ (ha k) (hb k)

/-! ## The shape operations that move or accumulate entries -/

/-- A gather only selects entries of its operand: each result entry is an operand entry. -/
theorem gather_real {s si t : Shape} {w : ℕ} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

/-- An accumulating scatter gives, at each entry, the operand's entry plus the finite sum of the update entries that land
    on it: a real number when operand and updates are real. -/
theorem scatterAdd_real {s si u : Shape} {φ : FTy} {w : ℕ} (d : ScatterDims s si u) (x : FVec Ideal s φ) (idx : IVec si w)
    (upd : FVec Ideal u φ) (hx : ∀ i, ∃ r : ℝ, x i = (r : EReal)) (hu : ∀ j, ∃ r : ℝ, upd j = (r : EReal)) :
    ∀ i, ∃ r : ℝ, Host.scatterAdd d x idx upd i = (r : EReal) := by
  intro i
  change ∃ r : ℝ, x i + Finset.sum _ _ = (r : EReal)
  exact add_real _ _ (hx i) (sum_real _ _ fun j _ => hu j)

/-! ## Division by `max c 1` -/

/-- The f32 pattern `0x3F800000` is the real number 1. -/
theorem ofBits_one : Ideal.ofBits .f32 0x3F800000#32 = ((1 : ℝ) : EReal) := by
  simp [Ideal.ofBits, Ideal.ieee, -EReal.coe_mul]; norm_num

/-- A real number divided by `max c 1`, the 1 given as its f32 pattern: the divisor is a real number at least 1, so not
    zero, and the quotient is the real `r * (1 / max c 1)`. -/
theorem div_max_one_real (r c : ℝ) :
    ∃ q : ℝ, Ideal.div (r : EReal) (max (c : EReal) (Ideal.ofBits .f32 0x3F800000#32)) = (q : EReal) := by
  have hm : max (c : EReal) (((1 : ℝ)) : EReal) = ((max c 1 : ℝ) : EReal) :=
    (EReal.coe_strictMono.monotone.map_max).symm
  have h0 : max c 1 ≠ 0 := ne_of_gt (lt_of_lt_of_le one_pos (le_max_right c 1))
  rw [ofBits_one, hm, Ideal.div_coe h0, ← EReal.coe_mul]
  exact ⟨_, rfl⟩

/-! ## The precondition decoded -/

open Cert.Pre_finite_inputs in
/-- "Every float input is finite", read on the extended reals: every entry of each of the six float arguments is a real
    number. The predicate is the `and` of six bits, one per float argument, each the `and`-reduction over all axes of the
    elementwise test `|x| < +inf`. Its value 1 splits into the six bits being 1; a reduction by `and` that is 1 had a 1 at
    every entry; and `|a| < +inf` leaves `a` neither infinity. -/
theorem pre_reals [Cert.Pre_finite_inputs.Facts] (a0 : FVec Ideal ⟨2, ![100000, 128]⟩ .f32) (a1 : IVec ⟨2, ![2, 1600000]⟩ 32)
    (a2 : FVec Ideal ⟨2, ![128, 128]⟩ .f32) (a3 : FVec Ideal ⟨1, ![128]⟩ .f32) (a4 : FVec Ideal ⟨2, ![128, 128]⟩ .f32)
    (a5 a6 : FVec Ideal ⟨1, ![128]⟩ .f32)
    (h : Cert.Pre_finite_inputs.fn (F := Ideal) a0 a1 a2 a3 a4 a5 a6 = fun _ => 1#1) :
    (∀ i, ∃ r : ℝ, a0 i = (r : EReal)) ∧ (∀ i, ∃ r : ℝ, a2 i = (r : EReal)) ∧ (∀ i, ∃ r : ℝ, a3 i = (r : EReal)) ∧
      (∀ i, ∃ r : ℝ, a4 i = (r : EReal)) ∧ (∀ i, ∃ r : ℝ, a5 i = (r : EReal)) ∧ (∀ i, ∃ r : ℝ, a6 i = (r : EReal)) := by
  have e := congrFun h ValueIdx.ix0
  dsimp only [Cert.Pre_finite_inputs.fn, Cert.Pre_finite_inputs.fn_part1, andi] at e
  simp only [IntOp.andi_eq_one] at e
  obtain ⟨⟨⟨⟨⟨h0, h2⟩, h3⟩, h4⟩, h5⟩, h6⟩ := e
  exact ⟨fun i => Cert.Lib.FiniteEntry.entry_real _ a0 i (Host.reduce_andi_all _ _ _ _ _ h0 i),
    fun i => Cert.Lib.FiniteEntry.entry_real _ a2 i (Host.reduce_andi_all _ _ _ _ _ h2 i),
    fun i => Cert.Lib.FiniteEntry.entry_real _ a3 i (Host.reduce_andi_all _ _ _ _ _ h3 i),
    fun i => Cert.Lib.FiniteEntry.entry_real _ a4 i (Host.reduce_andi_all _ _ _ _ _ h4 i),
    fun i => Cert.Lib.FiniteEntry.entry_real _ a5 i (Host.reduce_andi_all _ _ _ _ _ h5 i),
    fun i => Cert.Lib.FiniteEntry.entry_real _ a6 i (Host.reduce_andi_all _ _ _ _ _ h6 i)⟩

end Cert.Finite

end
-- ==== Proof.LayerReal.lean ====
/-
  Under real-valued inputs every number of the layer, and of the reference's host prologue, is a real number.

  The layer at row `p`, column `q` is
      (∑ₖ (msg[p,k] / max(cnt[p], 1)) · wl[k,q] + ∑ₖ x[p,k] · wr[k,q]) + b[q];
  when `cnt`, `msg`, `x`, `wl`, `wr`, `b` hold real numbers, each quotient is a real (the divisor `max(cnt[p], 1)` is a
  real at least 1), each of the two dot products is a real, and so is their sum with the bias (`layer_real`).

  The reference builds `msg` and `cnt` on the host: `msg` is an accumulating scatter of gathered rows of the node
  features into an array of zeros (`msg_real`), `cnt` an accumulating scatter of ones into an array of zeros
  (`cnt_real`); a gather only selects entries, and an accumulating scatter adds finitely many update entries to an
  operand entry, so both arrays hold real numbers when the node features do. The two weights are transposed, which only
  permutes their entries (`transposed_real`, `transposed2_real`). The definitions `val_main_vN` are those of the
  generated module imported below, one per host operation of the reference.
-/
import proofs.«152660_j24068996727347_2_alg».proof.Proof.Finite
import proofs.«152660_j24068996727347_2_alg».proof.Proof.Spec
import proofs.«152660_j24068996727347_2_alg».proof.Proof.Gen.ReferenceIdeal.Read

noncomputable section

namespace Cert.LayerReal

open Idealize.ShloMosaic Idealize.ShloMosaic.ValueIdx
open Cert.ReferenceIdeal Cert.ReferenceIdeal.Read

/-! ## The layer -/

/-- One layer entry is a real number when all six of its arrays hold real numbers. -/
theorem layer_real {M : ℕ} (cnt : (⟨2, ![M, 1]⟩ : Shape).Idx → EReal) (msg x : (⟨2, ![M, 128]⟩ : Shape).Idx → EReal)
    (wl wr : (⟨2, ![128, 128]⟩ : Shape).Idx → EReal) (b : (⟨2, ![1, 128]⟩ : Shape).Idx → EReal)
    (hcnt : ∀ i, ∃ r : ℝ, cnt i = (r : EReal)) (hmsg : ∀ i, ∃ r : ℝ, msg i = (r : EReal))
    (hx : ∀ i, ∃ r : ℝ, x i = (r : EReal)) (hwl : ∀ i, ∃ r : ℝ, wl i = (r : EReal))
    (hwr : ∀ i, ∃ r : ℝ, wr i = (r : EReal)) (hb : ∀ i, ∃ r : ℝ, b i = (r : EReal))
    (p : Fin M) (q : Fin 128) : ∃ r : ℝ, Cert.Spec.layer cnt msg x wl wr b p q = (r : EReal) := by
  unfold Cert.Spec.layer
  refine Cert.Finite.add_real _ _ (Cert.Finite.add_real _ _ ?_ ?_) (hb _)
  · -- the neighbour mean through the left weight: each quotient is a real divided by `max c 1`
    refine Cert.Finite.dot_real (fun k => Ideal.div (msg (ix2 p k)) (max (cnt (ix2 p (0 : Fin 1))) Cert.Spec.oneW))
      (fun k => wl (ix2 k q)) (fun k => ?_) (fun k => hwl _)
    obtain ⟨m, hm⟩ := hmsg (ix2 p k)
    obtain ⟨c, hc⟩ := hcnt (ix2 p (0 : Fin 1))
    rw [hm, hc]
    exact Cert.Finite.div_max_one_real m c
  · -- the node's own features through the right weight
    exact Cert.Finite.dot_real (fun k => x (ix2 p k)) (fun k => wr (ix2 k q)) (fun k => hx _) (fun k => hwr _)

/-! ## The reference's host prologue -/

/-- The summed neighbour features: gathered rows of real node features, scattered with accumulation into zeros. -/
theorem msg_real (x0 : (⟨S100000x128, .f32⟩ : BufTy).Contents (Elt Ideal)) (x1 : (⟨S2x1600000, .i32⟩ : BufTy).Contents (Elt Ideal))
    (hx : ∀ i, ∃ r : ℝ, x0 i = (r : EReal)) : ∀ i, ∃ r : ℝ, val_main_v13 (F := Ideal) x0 x1 i = (r : EReal) := by
  unfold val_main_v13
  refine Cert.Finite.scatterAdd_real _ _ _ _ (fun i => ⟨0, ?_⟩) ?_
  · rw [val_main_v11_apply, val_main_cst_apply]
    exact Ideal.ofBits_zero_f32.trans EReal.coe_zero.symm
  · unfold val_main_v10
    exact Cert.Finite.gather_real _ _ _ hx

/-- The neighbour counts: ones scattered with accumulation into zeros. -/
theorem cnt_real (x1 : (⟨S2x1600000, .i32⟩ : BufTy).Contents (Elt Ideal)) :
    ∀ i, ∃ r : ℝ, val_main_v17 (F := Ideal) x1 i = (r : EReal) := by
  unfold val_main_v17
  refine Cert.Finite.scatterAdd_real _ _ _ _ (fun i => ⟨0, ?_⟩) (fun j => ⟨1, ?_⟩)
  · rw [val_main_v15_apply, val_main_cst_2_apply]
    exact Ideal.ofBits_zero_f32.trans EReal.coe_zero.symm
  · rw [val_main_v14_apply, val_main_cst_1_apply]
    exact Cert.Finite.ofBits_one

/-- The left weight transposed holds the left weight's entries, permuted. -/
theorem transposed_real (x2 : (⟨S128x128, .f32⟩ : BufTy).Contents (Elt Ideal)) (h : ∀ i, ∃ r : ℝ, x2 i = (r : EReal)) :
    ∀ i, ∃ r : ℝ, val_main_v23 (F := Ideal) x2 i = (r : EReal) := by
  intro i
  rw [val_main_v23_apply]
  exact h _

/-- The right weight transposed holds the right weight's entries, permuted. -/
theorem transposed2_real (x4 : (⟨S128x128, .f32⟩ : BufTy).Contents (Elt Ideal)) (h : ∀ i, ∃ r : ℝ, x4 i = (r : EReal)) :
    ∀ i, ∃ r : ℝ, val_main_v28 (F := Ideal) x4 i = (r : EReal) := by
  intro i
  rw [val_main_v28_apply]
  exact h _

end Cert.LayerReal

end
-- ==== Proof.KLayer.lean ====
/-
  The layer's array, as the first pallas_call computes it, in terms of the launch arguments.

  The first pallas_call finds the message sums, the neighbour counts (as a column), the node features, the two
  transposed weights and the bias (as a row), all written by the host prologue from the arguments. Its layer at node i
  and feature j is therefore
      (∑ₖ (msg[i,k] / max(cnt[i], 1)) · wlᵀ[k,j] + ∑ₖ x[i,k] · wrᵀ[k,j]) + b[j]
  with msg, cnt, wlᵀ, wrᵀ the host stages of the arguments. When the float arguments hold real numbers, so does the layer.
-/
import proofs.«152660_j24068996727347_2_alg».proof.Proof.Region0
import proofs.«152660_j24068996727347_2_alg».proof.Proof.HostPre
import proofs.«152660_j24068996727347_2_alg».proof.Proof.LayerReal

set_option maxRecDepth 16384

noncomputable section

namespace Cert.KernelIdeal.KLayer

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The layer at node `i` and feature `j` from the message sums, the neighbour counts (one per node), the node features,
    the two transposed weights and the bias (one per feature). -/
def layerOf (msg : (⟨2, ![100000, 128]⟩ : Shape).Idx → EReal) (cnt : (⟨1, ![100000]⟩ : Shape).Idx → EReal)
    (x : (⟨2, ![100000, 128]⟩ : Shape).Idx → EReal) (wl wr : (⟨2, ![128, 128]⟩ : Shape).Idx → EReal)
    (b : (⟨1, ![128]⟩ : Shape).Idx → EReal) (i : Fin 100000) (j : Fin 128) : EReal :=
  (∑ k : Fin 128, Ideal.div (msg (ix2 i k)) (max (cnt (ix1 i)) oneW) * wl (ix2 k j)
    + ∑ k : Fin 128, x (ix2 i k) * wr (ix2 k j)) + b (ix1 j)

/-- The layer's array after the first pallas_call, from the launch memory. -/
abbrev Hk (c : Dev nD) : S100000x128.Idx → EReal := Region0.H (V1 m ρ) c

/-- The layer at node `i`, feature `j`, over the host stages of the launch arguments. -/
theorem ker_h_at (c : Dev nD) (i : Fin 100000) (j : Fin 128) :
    Hk m ρ c (ix2 i j)
      = layerOf
          (Cert.ReferenceIdeal.Read.val_main_v13 (F := Ideal) (m ((c : Thread nD τ).loc main_arg0)) (m ((c : Thread nD τ).loc main_arg1)))
          (Cert.ReferenceIdeal.Read.val_main_v17 (F := Ideal) (m ((c : Thread nD τ).loc main_arg1)))
          (m ((c : Thread nD τ).loc main_arg0))
          (Cert.ReferenceIdeal.Read.val_main_v23 (F := Ideal) (m ((c : Thread nD τ).loc main_arg2)))
          (Cert.ReferenceIdeal.Read.val_main_v28 (F := Ideal) (m ((c : Thread nD τ).loc main_arg4)))
          (m ((c : Thread nD τ).loc main_arg3)) i j := by
  have e15 : (V1 m ρ c main_v15 : S100000x128.Idx → EReal)
      = Cert.ReferenceIdeal.Read.val_main_v13 (F := Ideal) (m ((c : Thread nD τ).loc main_arg0)) (m ((c : Thread nD τ).loc main_arg1)) :=
    HostPre.pre_msg (W0 m ρ c)
  have e20 : (V1 m ρ c main_v20 : S100000x1.Idx → EReal) (ix2 i (0 : Fin 1))
      = Cert.ReferenceIdeal.Read.val_main_v17 (F := Ideal) (m ((c : Thread nD τ).loc main_arg1)) (ix1 i) :=
    HostPre.pre_cnt (W0 m ρ c) i 0
  have e0 : (V1 m ρ c main_arg0 : S100000x128.Idx → EReal) = m ((c : Thread nD τ).loc main_arg0) :=
    HostPre.pre_arg0 (W0 m ρ c)
  have e21 : (V1 m ρ c main_v21 : S128x128.Idx → EReal)
      = Cert.ReferenceIdeal.Read.val_main_v23 (F := Ideal) (m ((c : Thread nD τ).loc main_arg2)) :=
    HostPre.pre_wl (W0 m ρ c)
  have e22 : (V1 m ρ c main_v22 : S128x128.Idx → EReal)
      = Cert.ReferenceIdeal.Read.val_main_v28 (F := Ideal) (m ((c : Thread nD τ).loc main_arg4)) :=
    HostPre.pre_wr (W0 m ρ c)
  have e23 : (V1 m ρ c main_v23 : S1x128.Idx → EReal) (ix2 (0 : Fin 1) j)
      = (m ((c : Thread nD τ).loc main_arg3) : S128.Idx → EReal) (ix1 j) :=
    HostPre.pre_bl (W0 m ρ c) 0 j
  show Region0.H (V1 m ρ) c (ix2 i j) = _
  rw [Region0.H_at]
  unfold Cert.Spec.layer layerOf
  rw [e15, e20, e0, e21, e22, e23]

/-- Every entry of the layer's array is a real number when the float arguments the layer reads hold real numbers. -/
theorem H_real (c : Dev nD)
    (h0 : ∀ i, ∃ r : ℝ, (m ((c : Thread nD τ).loc main_arg0) : S100000x128.Idx → EReal) i = (r : EReal))
    (h2 : ∀ i, ∃ r : ℝ, (m ((c : Thread nD τ).loc main_arg2) : S128x128.Idx → EReal) i = (r : EReal))
    (h3 : ∀ i, ∃ r : ℝ, (m ((c : Thread nD τ).loc main_arg3) : S128.Idx → EReal) i = (r : EReal))
    (h4 : ∀ i, ∃ r : ℝ, (m ((c : Thread nD τ).loc main_arg4) : S128x128.Idx → EReal) i = (r : EReal))
    (k : Fin 100000) (j : Fin 128) : ∃ r : ℝ, Hk m ρ c (ix2 k j) = (r : EReal) := by
  show ∃ r : ℝ, Region0.H (V1 m ρ) c (ix2 k j) = (r : EReal)
  rw [Region0.H_at]
  refine Cert.LayerReal.layer_real _ _ _ _ _ _ (fun i => ?_) (fun i => ?_) (fun i => ?_) (fun i => ?_) (fun i => ?_) (fun i => ?_) k j
  · obtain ⟨p, u, rfl⟩ : ∃ (p : Fin 100000) (u : Fin 1), i = ix2 p u := ⟨i 0, i 1, eq_ix2 i⟩
    rw [show (V1 m ρ c main_v20 : S100000x1.Idx → EReal) (ix2 p u) = _ from HostPre.pre_cnt (W0 m ρ c) p u]
    exact Cert.LayerReal.cnt_real _ _
  · rw [show (V1 m ρ c main_v15 : S100000x128.Idx → EReal) = _ from HostPre.pre_msg (W0 m ρ c)]
    exact Cert.LayerReal.msg_real _ _ h0 i
  · rw [show (V1 m ρ c main_arg0 : S100000x128.Idx → EReal) = _ from HostPre.pre_arg0 (W0 m ρ c)]
    exact h0 i
  · rw [show (V1 m ρ c main_v21 : S128x128.Idx → EReal) = _ from HostPre.pre_wl (W0 m ρ c)]
    exact Cert.LayerReal.transposed_real _ h2 i
  · rw [show (V1 m ρ c main_v22 : S128x128.Idx → EReal) = _ from HostPre.pre_wr (W0 m ρ c)]
    exact Cert.LayerReal.transposed2_real _ h4 i
  · obtain ⟨u, q, rfl⟩ : ∃ (u : Fin 1) (q : Fin 128), i = ix2 u q := ⟨i 0, i 1, eq_ix2 i⟩
    rw [show (V1 m ρ c main_v23 : S1x128.Idx → EReal) (ix2 u q) = _ from HostPre.pre_bl (W0 m ρ c) u q]
    exact h3 _

end Cert.KernelIdeal.KLayer

end
-- ==== Proof.LibBatchVar.lean ====
/-
  The two-pass and the one-pass batch variance agree.

  For real numbers x₁ … x_N (N > 0) with s = ∑ xᵢ and q = ∑ xᵢ², the one-pass form

      max (q · (1/N) − (s · (1/N))², 0)

  and the two-pass form

      (∑ (xᵢ − s / N)²) / N

  are the same real number: expanding the square, ∑ (xᵢ − μ)² = q − 2 μ s + N μ² with μ = s / N, which is q − s² / N;
  and the common value is a mean of squares, hence non-negative, so the clamp at 0 is the identity. The identity uses
  cancellation, which fails at the infinities: it is stated for real numbers read in the extended reals. The mean
  itself, s · (1/N) against s / N, needs nothing (`Ideal.div_coe`).
-/
import Idealize.ShloMosaic.PureOps.Ideal
import Mathlib.Algebra.BigOperators.Ring.Finset
import Mathlib.Algebra.Order.BigOperators.Ring.Finset
import Mathlib.Tactic.Ring
import Mathlib.Tactic.FieldSimp
import Mathlib.Tactic.Positivity

open Idealize.ShloMosaic

namespace Cert.Lib.BatchVar

variable {ι : Type*} [Fintype ι]

/-- The coercion of a finite real sum is the sum of the coercions. -/
theorem coe_sum' (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- ∑ (xᵢ − μ)² = q − 2 μ s + N μ², for any μ. -/
theorem sum_sq_dev (x : ι → ℝ) (μ : ℝ) :
    ∑ i, (x i - μ) * (x i - μ) = (∑ i, x i * x i) - 2 * μ * (∑ i, x i) + (Fintype.card ι : ℝ) * (μ * μ) := by
  have h : ∀ i, (x i - μ) * (x i - μ) = x i * x i - 2 * μ * x i + μ * μ := fun i => by ring
  simp only [h, Finset.sum_add_distrib, Finset.sum_sub_distrib, ← Finset.mul_sum, Finset.sum_const, Finset.card_univ,
    nsmul_eq_mul]
  ring

/-- The one-pass variance is the two-pass variance, on the reals. -/
theorem var_real (x : ι → ℝ) (n : ℝ) (hcard : (Fintype.card ι : ℝ) = n) (hn : n ≠ 0) :
    (∑ i, x i * x i) * (1 / n) - ((∑ i, x i) * (1 / n)) * ((∑ i, x i) * (1 / n))
      = (∑ i, (x i - (∑ i, x i) * (1 / n)) * (x i - (∑ i, x i) * (1 / n))) * (1 / n) := by
  rw [sum_sq_dev, hcard]
  field_simp
  ring

/-- The two-pass variance is non-negative. -/
theorem var_nonneg (x : ι → ℝ) (μ n : ℝ) (hn : 0 < n) : 0 ≤ (∑ i, (x i - μ) * (x i - μ)) * (1 / n) :=
  mul_nonneg (Finset.sum_nonneg fun i _ => mul_self_nonneg _) (by positivity)

/-- The mean: a real sum times the reciprocal of the count is the quotient by the count, on the extended reals. -/
theorem mean_eq (s : EReal) (n : ℝ) (hn : n ≠ 0) : s * ((1 / n : ℝ) : EReal) = Ideal.div s (n : EReal) :=
  (Ideal.div_coe hn s).symm

/-- The batch variance on the extended reals, for real entries: the one-pass form clamped at zero, over the sums
    `s = ∑ xᵢ` and `q = ∑ xᵢ²` taken in the extended reals, is the two-pass form about the quotient mean. -/
theorem var_eq (x : ι → ℝ) (n : ℝ) (hcard : (Fintype.card ι : ℝ) = n) (hn : 0 < n) :
    max ((∑ i, (x i : EReal) * (x i : EReal)) * ((1 / n : ℝ) : EReal)
          - ((∑ i, (x i : EReal)) * ((1 / n : ℝ) : EReal)) * ((∑ i, (x i : EReal)) * ((1 / n : ℝ) : EReal))) 0
      = Ideal.div (∑ i, ((x i : EReal) - Ideal.div (∑ i, (x i : EReal)) (n : EReal))
          * ((x i : EReal) - Ideal.div (∑ i, (x i : EReal)) (n : EReal))) (n : EReal) := by
  have hn0 : n ≠ 0 := ne_of_gt hn
  rw [Ideal.div_coe hn0, Ideal.div_coe hn0]
  simp only [← EReal.coe_mul, ← coe_sum', ← EReal.coe_sub]
  rw [var_real x n hcard hn0]
  exact max_eq_left (EReal.coe_nonneg.mpr (var_nonneg x _ n hn))

end Cert.Lib.BatchVar
-- ==== Proof.BnLaw.lean ====
/-
  The one-pass and the two-pass batch normalisation agree at every entry.

  For real numbers x₁ … x_N (N = K · B > 0, read in K blocks of B), a real scale g, a real shift b and a real ε > 0, put
  s = ∑ xᵢ, q = ∑ xᵢ², μ = s / N. The one-pass form computes the variance as max (q / N − μ², 0), the factor
  c = g · rsqrt (var + ε) and the shift b − μ · c, and returns xᵢ · c + (b − μ · c). The two-pass form computes the
  variance as (∑ (xᵢ − μ)²) / N and returns (g · (xᵢ − μ)) · rsqrt (var + ε) + b.

  Both variances are the same non-negative real number v (expanding the square; the clamp at 0 is then the identity), so
  v + ε > 0 and rsqrt (v + ε) is the real number ρ = 1 / √(v + ε). What is left is the real identity
  xᵢ · (g ρ) + (b − μ · (g ρ)) = (g · (xᵢ − μ)) · ρ + b. Distributivity and cancellation fail at the infinities, so all
  of this is stated for real entries read in the extended reals. The block sums are the full sums by reindexing.

  Also here: three f32 patterns read as real numbers (1.0e5, the f32 nearest 1.0e-5, and 1.0).
-/
import Idealize.ShloMosaic.PureOps.Ideal
import proofs.«152660_j24068996727347_2_alg».proof.Proof.LibBatchVar
import proofs.«152660_j24068996727347_2_alg».proof.Proof.LibBlockSum
import Mathlib.Tactic.Ring
import Mathlib.Tactic.FieldSimp
import Mathlib.Tactic.Positivity
import Mathlib.Tactic.Linarith

open Idealize.ShloMosaic
open Cert.Lib.BlockSum
open Cert.Lib.BatchVar

namespace Cert.BnLaw

/-- The quotient of a real number by a nonzero real number, on the extended reals, is the real quotient. -/
theorem div_real (a n : ℝ) (hn : n ≠ 0) : Ideal.div (a : EReal) (n : EReal) = ((a * (1 / n) : ℝ) : EReal) := by
  rw [Ideal.div_coe hn, ← EReal.coe_mul]

/-- The reciprocal square root of a positive real number is the real number 1 / √r. -/
theorem rsqrt_pos (r : ℝ) (hr : 0 < r) : Ideal.rsqrt (r : EReal) = (((Real.sqrt r)⁻¹ : ℝ) : EReal) := by
  rw [Ideal.rsqrt_coe, if_neg (not_lt.mpr hr.le), if_neg (ne_of_gt hr)]

/-- The affine law on real numbers read in the extended reals:
    x · (g ρ) + (b − μ · (g ρ)) = (g · (x − μ)) · ρ + b. -/
theorem affine_real (xi g b μ ρ : ℝ) :
    (xi : EReal) * ((g : EReal) * (ρ : EReal)) + ((b : EReal) - (μ : EReal) * ((g : EReal) * (ρ : EReal)))
      = ((g : EReal) * ((xi : EReal) - (μ : EReal))) * (ρ : EReal) + (b : EReal) := by
  simp only [← EReal.coe_mul, ← EReal.coe_sub, ← EReal.coe_add]
  congr 1
  ring

/-- One-pass batch normalisation over K blocks of B rows is two-pass batch normalisation over all K · B rows, at every
    entry, for real entries, real scale and shift, and a positive real ε. -/
theorem bn_point (K B : ℕ) (x : Fin (K * B) → ℝ) (g b ε n : ℝ) (hcard : ((K * B : ℕ) : ℝ) = n) (hn : 0 < n) (hε : 0 < ε)
    (s1 s2 : EReal)
    (hs1 : s1 = ∑ t : Fin K, ∑ r : Fin B, ((x (at_ t r) : ℝ) : EReal))
    (hs2 : s2 = ∑ t : Fin K, ∑ r : Fin B, ((x (at_ t r) : ℝ) : EReal) * ((x (at_ t r) : ℝ) : EReal))
    (i : Fin (K * B)) :
    ((x i : ℝ) : EReal) * ((g : EReal) * Ideal.rsqrt (max (Ideal.div s2 (n : EReal) - Ideal.div s1 (n : EReal) * Ideal.div s1 (n : EReal)) 0 + (ε : EReal)))
      + ((b : EReal) - Ideal.div s1 (n : EReal) * ((g : EReal) * Ideal.rsqrt (max (Ideal.div s2 (n : EReal) - Ideal.div s1 (n : EReal) * Ideal.div s1 (n : EReal)) 0 + (ε : EReal))))
    = ((g : EReal) * (((x i : ℝ) : EReal) - Ideal.div (∑ k, ((x k : ℝ) : EReal)) (n : EReal)))
        * Ideal.rsqrt (Ideal.div (∑ k, (((x k : ℝ) : EReal) - Ideal.div (∑ k, ((x k : ℝ) : EReal)) (n : EReal))
                                      * (((x k : ℝ) : EReal) - Ideal.div (∑ k, ((x k : ℝ) : EReal)) (n : EReal))) (n : EReal) + (ε : EReal))
      + (b : EReal) := by
  have hn0 : n ≠ 0 := ne_of_gt hn
  have hcard' : (Fintype.card (Fin (K * B)) : ℝ) = n := by rw [Fintype.card_fin]; exact hcard
  -- the sums of the entries and of their squares are real numbers
  have e1 : (∑ k, ((x k : ℝ) : EReal)) = ((∑ k, x k : ℝ) : EReal) := (coe_sum' Finset.univ x).symm
  have e2 : (∑ k, ((x k : ℝ) : EReal) * ((x k : ℝ) : EReal)) = ((∑ k, x k * x k : ℝ) : EReal) := by
    rw [coe_sum' Finset.univ (fun k => x k * x k)]
    exact Finset.sum_congr rfl fun k _ => (EReal.coe_mul _ _).symm
  -- the sums of the block sums are the full sums
  have h1 : s1 = ((∑ k, x k : ℝ) : EReal) :=
    hs1.trans ((sum_blocks K B (fun k => ((x k : ℝ) : EReal))).symm.trans e1)
  have h2 : s2 = ((∑ k, x k * x k : ℝ) : EReal) :=
    hs2.trans ((sum_blocks K B (fun k => ((x k : ℝ) : EReal) * ((x k : ℝ) : EReal))).symm.trans e2)
  -- the mean μ, on both sides
  obtain ⟨μ, hμ⟩ : ∃ μ : ℝ, μ = (∑ k, x k) * (1 / n) := ⟨_, rfl⟩
  have hm1 : Ideal.div s1 (n : EReal) = (μ : EReal) := by rw [h1, hμ]; exact div_real _ _ hn0
  have hm2 : Ideal.div (∑ k, ((x k : ℝ) : EReal)) (n : EReal) = (μ : EReal) := by rw [e1, hμ]; exact div_real _ _ hn0
  have hq : Ideal.div s2 (n : EReal) = (((∑ k, x k * x k) * (1 / n) : ℝ) : EReal) := by rw [h2]; exact div_real _ _ hn0
  -- the variance v, on both sides
  obtain ⟨v, hv⟩ : ∃ v : ℝ, v = (∑ k, (x k - μ) * (x k - μ)) * (1 / n) := ⟨_, rfl⟩
  have hv0 : 0 ≤ v := by rw [hv]; exact var_nonneg x μ n hn
  have hvar2 : Ideal.div (∑ k, (((x k : ℝ) : EReal) - (μ : EReal)) * (((x k : ℝ) : EReal) - (μ : EReal))) (n : EReal)
      = (v : EReal) := by
    have e3 : (∑ k, (((x k : ℝ) : EReal) - (μ : EReal)) * (((x k : ℝ) : EReal) - (μ : EReal)))
        = ((∑ k, (x k - μ) * (x k - μ) : ℝ) : EReal) := by
      rw [coe_sum' Finset.univ (fun k => (x k - μ) * (x k - μ))]
      exact Finset.sum_congr rfl fun k _ => by rw [EReal.coe_mul, EReal.coe_sub]
    rw [e3, hv]; exact div_real _ _ hn0
  have hvar1 : max ((((∑ k, x k * x k) * (1 / n) : ℝ) : EReal) - (μ : EReal) * (μ : EReal)) 0 = (v : EReal) := by
    rw [← EReal.coe_mul, ← EReal.coe_sub]
    have hr : (∑ k, x k * x k) * (1 / n) - μ * μ = v := by
      subst hv; subst hμ; exact var_real x n hcard' hn0
    rw [hr]; exact max_eq_left (EReal.coe_nonneg.mpr hv0)
  have hpos : 0 < v + ε := by linarith
  -- both sides are now real expressions in x i, g, b, μ and ρ = 1 / √(v + ε)
  rw [hm1, hq, hm2, hvar1, hvar2, ← EReal.coe_add, rsqrt_pos _ hpos]
  exact affine_real _ _ _ _ _

/-- The f32 pattern `0x47C35000` (sign 0, exponent 143, significand 2²³ + 4411392) is the real number
    12800000 · 2⁻⁷ = 100000. -/
theorem ofBits_n : Ideal.ofBits .f32 0x47C35000#32 = ((100000 : ℝ) : EReal) := by
  simp [Ideal.ofBits, Ideal.ieee, -EReal.coe_mul]; norm_num

/-- The f32 pattern `0x3727C5AC` (sign 0, exponent 110, significand 2²³ + 2606508) is the positive real number
    10995116 · 2⁻⁴⁰, the f32 nearest 10⁻⁵. -/
theorem ofBits_eps : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

/-- The f32 pattern `0x3F800000` is the real number 1. -/
theorem ofBits_one : Ideal.ofBits .f32 0x3F800000#32 = ((1 : ℝ) : EReal) := by
  simp [Ideal.ofBits, Ideal.ieee, -EReal.coe_mul]; norm_num

end Cert.BnLaw
-- ==== Proof.Bridge.lean ====
/-
  The kernel's BatchNorm of the layer is the reference's, entry by entry, when the layer is real-valued.

  For one feature j, write x_k for the layer's value at node k (a real number by hypothesis). The kernel's totals are
  t₁ = ∑ over the 25 blocks of the block's sum of x and t₂ = the same for x², and its entry is leaky(x_i · scale + bias)
  with scale = γ · rsqrt(max(t₂/N − (t₁/N)², 0) + ε) and bias = β − (t₁/N) · scale. The reference's entry is
  leaky((γ · (x_i − μ)) · rsqrt(var + ε) + β) with μ and var taken over all N = 100000 nodes. The blocked sums rejoin the
  whole sums, the clamped one-pass variance is the two-pass variance for real entries, and the affine forms agree on the
  reals; the zero word adds nothing, N's word is the real 100000 and ε's word is a positive real.
-/
import proofs.«152660_j24068996727347_2_alg».proof.Proof.Spec
import proofs.«152660_j24068996727347_2_alg».proof.Proof.BnLaw
import Idealize.ShloMosaic.PureOps.Ideal.Laws

noncomputable section

namespace Cert.Bridge

open Cert.Spec Cert.BnLaw Cert.Lib.BlockSum
open Idealize.ShloMosaic Idealize.ShloMosaic.ValueIdx

/-- Row `r` of block `t`, among 25 blocks of 4000 rows. -/
abbrev rowOf (t : Fin 25) (r : Fin 4000) : Fin 100000 := ⟨t.val * 4000 + r.val, by
  have ht := t.isLt
  have hr := r.isLt
  omega⟩

theorem out_eq (h : (⟨2, ![100000, 128]⟩ : Shape).Idx → EReal) (g b : (⟨1, ![128]⟩ : Shape).Idx → EReal)
    (hh : ∀ (k : Fin 100000) (j : Fin 128), ∃ r : ℝ, h (ix2 k j) = (r : EReal))
    (hg : ∀ j, ∃ r : ℝ, g j = (r : EReal)) (hb : ∀ j, ∃ r : ℝ, b j = (r : EReal)) (i : Fin 100000) (j : Fin 128) :
    kerOut (h (ix2 i j))
        (zeroW + ∑ t : Fin 25, ∑ r : Fin 4000, h (ix2 (rowOf t r) j))
        (zeroW + ∑ t : Fin 25, ∑ r : Fin 4000, h (ix2 (rowOf t r) j) * h (ix2 (rowOf t r) j))
        (g (ix1 j)) (b (ix1 j))
      = refOut h g b i j := by
  choose x hx using fun k : Fin 100000 => hh k j
  obtain ⟨gr, hgr⟩ := hg (ix1 j)
  obtain ⟨br, hbr⟩ := hb (ix1 j)
  obtain ⟨ε, hεpos, hε⟩ := ofBits_eps
  unfold kerOut refOut biasOf scaleOf
  refine congrArg leaky ?_
  rw [show zeroW = (0 : EReal) from Ideal.ofBits_zero_f32, show nW = ((100000 : ℝ) : EReal) from ofBits_n,
    show epsW = (ε : EReal) from hε]
  simp only [zero_add, hx, hgr, hbr]
  exact bn_point 25 4000 x gr br ε 100000 (by norm_num) (by norm_num) hεpos _ _ rfl rfl i

end Cert.Bridge

end
-- ==== Proof.KernelValue.lean ====
/-
  The kernel's result buffer at an entry.

  After the four segments the result buffer holds what the second pass's write-backs leave: at node i and feature j the
  rectified affine image leaky(h[i,j] · scale[j] + bias[j]) of the layer's array h, which the host stretch between the two
  passes leaves as the first pass wrote it. The scale and bias rows are the stretch's: from the totals
  t₁ = 0 + ∑ₜ s₁[t,0,j] and t₂ = 0 + ∑ₜ s₂[t,0,j] of the first pass's per-block column sums s₁[t,0,j] = ∑ᵣ h[4000·t + r, j]
  and s₂[t,0,j] = ∑ᵣ h[4000·t + r, j]², and from the gain and the offset, which no earlier segment writes, so they are
  the launch memory's. Put together, the entry is the kernel's BatchNorm of the layer over 25 blocks of 4000 rows.
-/
import proofs.«152660_j24068996727347_2_alg».proof.Proof.KernelRun
import proofs.«152660_j24068996727347_2_alg».proof.Proof.Region1
import proofs.«152660_j24068996727347_2_alg».proof.Proof.Region0
import proofs.«152660_j24068996727347_2_alg».proof.Proof.HostMid
import proofs.«152660_j24068996727347_2_alg».proof.Proof.HostPre
import proofs.«152660_j24068996727347_2_alg».proof.Proof.KLayer
import proofs.«152660_j24068996727347_2_alg».proof.Proof.Spec
import proofs.«152660_j24068996727347_2_alg».proof.Proof.Bridge

set_option maxRecDepth 16384

noncomputable section

namespace Cert.KernelIdeal.KernelValue

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The gain and the offset rows of the launch memory, as arrays of extended reals. -/
def gamma (c : Dev nD) : S128.Idx → EReal := m ((c : Thread nD τ).loc main_arg5)
def beta (c : Dev nD) : S128.Idx → EReal := m ((c : Thread nD τ).loc main_arg6)

theorem gamma_def (c : Dev nD) : gamma m c = m ((c : Thread nD τ).loc main_arg5) := rfl
theorem beta_def (c : Dev nD) : beta m c = m ((c : Thread nD τ).loc main_arg6) := rfl

/-! ## What the second pass finds -/

/-- The layer's array reaches the second pass as the first pass left it. -/
theorem keep_eq (c : Dev nD) : (V3 m ρ c main_v24_0 : S100000x128.Idx → EReal) = KLayer.Hk m ρ c :=
  (HostMid.mid_keep (W2 m ρ c)).trans ((W2_arr m ρ c 6).trans (Region0.h_final (V1 m ρ) c))

/-- The two blocks of partial sums the stretch reads are the first pass's block sums of the layer and of its square. -/
theorem part1_eq (c : Dev nD) : HostMid.part1 (W2 m ρ c) = Region0.S1 (V1 m ρ) c :=
  (W2_arr m ρ c 7).trans (Region0.s1_final (V1 m ρ) c)
theorem part2_eq (c : Dev nD) : HostMid.part2 (W2 m ρ c) = Region0.S2 (V1 m ρ) c :=
  (W2_arr m ρ c 8).trans (Region0.s2_final (V1 m ρ) c)

/-- The gain and the offset the stretch reads are the launch memory's: neither the prologue nor the first pass writes them. -/
theorem gain_eq (c : Dev nD) : HostMid.gain (W2 m ρ c) = gamma m c :=
  (W2_of_ne m ρ c main_arg5 (by decide)).trans (HostPre.pre_arg5 (W0 m ρ c))
theorem offset_eq (c : Dev nD) : HostMid.offset (W2 m ρ c) = beta m c :=
  (W2_of_ne m ρ c main_arg6 (by decide)).trans (HostPre.pre_arg6 (W0 m ρ c))

/-! ## The scale and the bias rows, from the layer -/

/-- A block's partial sum is the sum of the layer over the block's 4000 rows; likewise for the squares. -/
theorem s1_rows (c : Dev nD) (t : Fin 25) (j : Fin 128) :
    Region0.S1 (V1 m ρ) c (ix3 t (0 : Fin 1) j) = ∑ r : Fin 4000, KLayer.Hk m ρ c (ix2 (Cert.Bridge.rowOf t r) j) :=
  Region0.S1_at (V1 m ρ) c t 0 j
theorem s2_rows (c : Dev nD) (t : Fin 25) (j : Fin 128) :
    Region0.S2 (V1 m ρ) c (ix3 t (0 : Fin 1) j)
      = ∑ r : Fin 4000, KLayer.Hk m ρ c (ix2 (Cert.Bridge.rowOf t r) j) * KLayer.Hk m ρ c (ix2 (Cert.Bridge.rowOf t r) j) :=
  Region0.S2_at (V1 m ρ) c t 0 j

/-- The scale row the second pass finds, at feature `j`. -/
theorem scale_eq (c : Dev nD) (j : Fin 128) :
    (V3 m ρ c main_v43 : S1x128.Idx → EReal) (ix2 (0 : Fin 1) j)
      = scaleOf (zeroW + ∑ t : Fin 25, ∑ r : Fin 4000, KLayer.Hk m ρ c (ix2 (Cert.Bridge.rowOf t r) j))
          (zeroW + ∑ t : Fin 25, ∑ r : Fin 4000,
            KLayer.Hk m ρ c (ix2 (Cert.Bridge.rowOf t r) j) * KLayer.Hk m ρ c (ix2 (Cert.Bridge.rowOf t r) j))
          (gamma m c (ix1 j)) := by
  refine (HostMid.mid_scale (W2 m ρ c) 0 j).trans ?_
  rw [part1_eq, part2_eq, gain_eq]
  simp only [s1_rows, s2_rows]

/-- The bias row the second pass finds, at feature `j`. -/
theorem bias_eq (c : Dev nD) (j : Fin 128) :
    (V3 m ρ c main_v44 : S1x128.Idx → EReal) (ix2 (0 : Fin 1) j)
      = biasOf (zeroW + ∑ t : Fin 25, ∑ r : Fin 4000, KLayer.Hk m ρ c (ix2 (Cert.Bridge.rowOf t r) j))
          (zeroW + ∑ t : Fin 25, ∑ r : Fin 4000,
            KLayer.Hk m ρ c (ix2 (Cert.Bridge.rowOf t r) j) * KLayer.Hk m ρ c (ix2 (Cert.Bridge.rowOf t r) j))
          (gamma m c (ix1 j)) (beta m c (ix1 j)) := by
  refine (HostMid.mid_bias (W2 m ρ c) 0 j).trans ?_
  rw [part1_eq, part2_eq, gain_eq, offset_eq]
  simp only [s1_rows, s2_rows]

/-! ## The result -/

/-- The kernel's result at node `i`, feature `j`: the kernel's BatchNorm of the layer's array over 25 blocks of 4000 rows,
    then the rectifier. -/
theorem ker_out_at (c : Dev nD) (i : Fin 100000) (j : Fin 128) :
    (W4 m ρ c (Proc.devRef .tc main_v45) : S100000x128.Idx → EReal) (ix2 i j)
      = kerOut (KLayer.Hk m ρ c (ix2 i j))
          (zeroW + ∑ t : Fin 25, ∑ r : Fin 4000, KLayer.Hk m ρ c (ix2 (Cert.Bridge.rowOf t r) j))
          (zeroW + ∑ t : Fin 25, ∑ r : Fin 4000,
            KLayer.Hk m ρ c (ix2 (Cert.Bridge.rowOf t r) j) * KLayer.Hk m ρ c (ix2 (Cert.Bridge.rowOf t r) j))
          (gamma m c (ix1 j)) (beta m c (ix1 j)) := by
  have e0 : (W4 m ρ c (Proc.devRef .tc main_v45) : S100000x128.Idx → EReal) = Region1.OUT (V3 m ρ) c :=
    (Named.result_eq m ρ c).trans (Region1.out_final (V3 m ρ) c)
  rw [e0, Region1.OUT_at]
  unfold Region1.affineAt kerOut
  rw [keep_eq, scale_eq, bias_eq]

end Cert.KernelIdeal.KernelValue

end
-- ==== Proof.RefRead.lean ====
/-
  The reference program read at one entry, on the extended reals.

  The reference computes, for node i and feature j, the layer value
      h[i,j] = (∑ₖ (msg[i,k] / max(cnt[i], 1)) · wl[k,j] + b[j]) + ∑ₖ x[i,k] · wr[k,j]
  (msg the sum of the neighbours' features, cnt the number of neighbours, wl and wr the transposed weights), then the
  feature's mean μ_j = (0 + ∑ₖ h[k,j]) / N and variance v_j = (0 + ∑ₖ (h[k,j] − μ_j)²) / N over the N = 100000 nodes,
  then y = (γ[j] · (h[i,j] − μ_j)) · rsqrt(v_j + ε) + β[j], and returns y where y ≥ 0 and slope · y elsewhere.

  Each stage of the program is read at an index from its operands at an index; the broadcasts and the sums' index
  functions are identified with the coordinates (i, j), (k, j), (j); every arithmetic operation on the extended reals
  is the extended reals' own, by definition. The stages are chained from the mean, through the deviation, the
  variance and the reciprocal square root, to the normalised value and the rectifier. The layer's value itself is read
  last: the two contractions term by term, the guarded count and the bias at their coordinates.
-/
import Idealize.ShloMosaic.PureOps.Ideal
import Idealize.ShloMosaic.Lib.ValueIdx
import proofs.«152660_j24068996727347_2_alg».proof.Proof.Gen.ReferenceIdeal.Read
import proofs.«152660_j24068996727347_2_alg».proof.Proof.Spec

noncomputable section

namespace Cert.RefRead

open Cert.ReferenceIdeal Cert.ReferenceIdeal.Gen Cert.ReferenceIdeal.Read Idealize.ShloMosaic Idealize.ShloMosaic.ValueIdx

/-! ### The index functions at coordinates -/

/-- Summing over the nodes at feature j reads entry (k, j). -/
theorem idx_v31 (j : Fin 128) (k : Fin 100000) : idx_main_v31 (ix1 j) k = ix2 k j :=
  funext fun a => by match a with | ⟨0, _⟩ => rfl | ⟨1, _⟩ => rfl
theorem idx_v38 (j : Fin 128) (k : Fin 100000) : idx_main_v38 (ix1 j) k = ix2 k j :=
  funext fun a => by match a with | ⟨0, _⟩ => rfl | ⟨1, _⟩ => rfl

/-- A per-feature row broadcast over the nodes reads feature j at entry (i, j). -/
theorem idx_v34_v35 (i : Fin 100000) (j : Fin 128) : idx_main_v34 (idx_main_v35 (ix2 i j)) = ix1 j :=
  funext fun a => by match a with | ⟨0, _⟩ => rfl
theorem idx_v41_v42 (i : Fin 100000) (j : Fin 128) : idx_main_v41 (idx_main_v42 (ix2 i j)) = ix1 j :=
  funext fun a => by match a with | ⟨0, _⟩ => rfl
theorem idx_v44_v45 (i : Fin 100000) (j : Fin 128) : idx_main_v44 (idx_main_v45 (ix2 i j)) = ix1 j :=
  funext fun a => by match a with | ⟨0, _⟩ => rfl
theorem idx_v50_v51 (i : Fin 100000) (j : Fin 128) : idx_main_v50 (idx_main_v51 (ix2 i j)) = ix1 j :=
  funext fun a => by match a with | ⟨0, _⟩ => rfl
theorem idx_v53_v54 (i : Fin 100000) (j : Fin 128) : idx_main_v53 (idx_main_v54 (ix2 i j)) = ix1 j :=
  funext fun a => by match a with | ⟨0, _⟩ => rfl
theorem idx_v25_v26 (i : Fin 100000) (j : Fin 128) : idx_main_v25 (idx_main_v26 (ix2 i j)) = ix1 j :=
  funext fun a => by match a with | ⟨0, _⟩ => rfl

/-- A per-node column broadcast over the features reads node i at entry (i, k). -/
theorem idx_v20_v21 (i : Fin 100000) (k : Fin 128) : idx_main_v20 (idx_main_v21 (ix2 i k)) = ix1 i :=
  funext fun a => by match a with | ⟨0, _⟩ => rfl

/-- The contraction of entry (i, j) reads the left operand at (i, k) and the right operand at (k, j). -/
theorem lidx_v24 (i : Fin 100000) (j k : Fin 128) : lidx_main_v24 (ix2 i j) k = ix2 i k :=
  funext fun a => by match a with | ⟨0, _⟩ => rfl | ⟨1, _⟩ => rfl
theorem ridx_v24 (i : Fin 100000) (j k : Fin 128) : ridx_main_v24 (ix2 i j) k = ix2 k j :=
  funext fun a => by match a with | ⟨0, _⟩ => rfl | ⟨1, _⟩ => rfl
theorem lidx_v29 (i : Fin 100000) (j k : Fin 128) : lidx_main_v29 (ix2 i j) k = ix2 i k :=
  funext fun a => by match a with | ⟨0, _⟩ => rfl | ⟨1, _⟩ => rfl
theorem ridx_v29 (i : Fin 100000) (j k : Fin 128) : ridx_main_v29 (ix2 i j) k = ix2 k j :=
  funext fun a => by match a with | ⟨0, _⟩ => rfl | ⟨1, _⟩ => rfl

/-! ### Batch normalisation, stage by stage -/

/-- The mean of feature j: the sum over the nodes, from 0, divided by the node count. -/
theorem mean_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (j : Fin 128) :
    val_main_v33 (F := Ideal) x0 x1 x2 x3 x4 (ix1 j) = Ideal.div (Cert.Spec.zeroW + ∑ k : Fin 100000, val_main_v30 (F := Ideal) x0 x1 x2 x3 x4 (ix2 k j)) Cert.Spec.nW := by
  rw [val_main_v33_apply, val_main_v31_apply, val_main_v32_apply, val_main_cst_5_apply, val_main_cst_4_apply]
  simp only [idx_v31, Ideal.hostDivf_def, Ideal.ofBits_def, Ideal.addf_def, Ideal.subf_def, Ideal.mulf_def, Ideal.hostUnary_rsqrt_def, Ideal.maximumf_def]

/-- The deviation from the mean at entry (k, j). -/
theorem dev_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (k : Fin 100000) (j : Fin 128) :
    val_main_v36 (F := Ideal) x0 x1 x2 x3 x4 (ix2 k j) = val_main_v30 (F := Ideal) x0 x1 x2 x3 x4 (ix2 k j) - Ideal.div (Cert.Spec.zeroW + ∑ k : Fin 100000, val_main_v30 (F := Ideal) x0 x1 x2 x3 x4 (ix2 k j)) Cert.Spec.nW := by
  rw [val_main_v36_apply, val_main_v35_apply, val_main_v34_apply, idx_v34_v35, mean_at, Ideal.subf_def]

/-- The variance of feature j: the sum over the nodes of the squared deviations, from 0, divided by the node count. -/
theorem var_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (j : Fin 128) :
    val_main_v40 (F := Ideal) x0 x1 x2 x3 x4 (ix1 j) = Ideal.div (Cert.Spec.zeroW + ∑ k : Fin 100000, (val_main_v30 (F := Ideal) x0 x1 x2 x3 x4 (ix2 k j) - Ideal.div (Cert.Spec.zeroW + ∑ k : Fin 100000, val_main_v30 (F := Ideal) x0 x1 x2 x3 x4 (ix2 k j)) Cert.Spec.nW) * (val_main_v30 (F := Ideal) x0 x1 x2 x3 x4 (ix2 k j) - Ideal.div (Cert.Spec.zeroW + ∑ k : Fin 100000, val_main_v30 (F := Ideal) x0 x1 x2 x3 x4 (ix2 k j)) Cert.Spec.nW)) Cert.Spec.nW := by
  rw [val_main_v40_apply, val_main_v38_apply, val_main_v39_apply, val_main_cst_7_apply, val_main_cst_6_apply,
    Ideal.hostDivf_def, Ideal.ofBits_def, Ideal.ofBits_def]
  refine congrArg (fun s => Ideal.div (Cert.Spec.zeroW + s) Cert.Spec.nW) (Finset.sum_congr rfl fun k _ => ?_)
  rw [idx_v38, val_main_v37_apply, dev_at, Ideal.mulf_def]

/-- The reciprocal square root of the guarded variance of feature j. -/
theorem rstd_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (j : Fin 128) :
    val_main_v49 (F := Ideal) x0 x1 x2 x3 x4 (ix1 j) = Ideal.rsqrt (Ideal.div (Cert.Spec.zeroW + ∑ k : Fin 100000, (val_main_v30 (F := Ideal) x0 x1 x2 x3 x4 (ix2 k j) - Ideal.div (Cert.Spec.zeroW + ∑ k : Fin 100000, val_main_v30 (F := Ideal) x0 x1 x2 x3 x4 (ix2 k j)) Cert.Spec.nW) * (val_main_v30 (F := Ideal) x0 x1 x2 x3 x4 (ix2 k j) - Ideal.div (Cert.Spec.zeroW + ∑ k : Fin 100000, val_main_v30 (F := Ideal) x0 x1 x2 x3 x4 (ix2 k j)) Cert.Spec.nW)) Cert.Spec.nW + Cert.Spec.epsW) := by
  rw [val_main_v49_apply, val_main_v48_apply, val_main_v47_apply, val_main_cst_8_apply,
    Ideal.hostUnary_rsqrt_def, Ideal.addf_def, Ideal.ofBits_def, var_at]

/-- The normalised value at entry (i, j). -/
theorem norm_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (i : Fin 100000) (j : Fin 128) :
    val_main_v55 (F := Ideal) x0 x1 x2 x3 x4 x5 x6 (ix2 i j)
      = (x5 (ix1 j) * (val_main_v30 (F := Ideal) x0 x1 x2 x3 x4 (ix2 i j) - Ideal.div (Cert.Spec.zeroW + ∑ k : Fin 100000, val_main_v30 (F := Ideal) x0 x1 x2 x3 x4 (ix2 k j)) Cert.Spec.nW)) * Ideal.rsqrt (Ideal.div (Cert.Spec.zeroW + ∑ k : Fin 100000, (val_main_v30 (F := Ideal) x0 x1 x2 x3 x4 (ix2 k j) - Ideal.div (Cert.Spec.zeroW + ∑ k : Fin 100000, val_main_v30 (F := Ideal) x0 x1 x2 x3 x4 (ix2 k j)) Cert.Spec.nW) * (val_main_v30 (F := Ideal) x0 x1 x2 x3 x4 (ix2 k j) - Ideal.div (Cert.Spec.zeroW + ∑ k : Fin 100000, val_main_v30 (F := Ideal) x0 x1 x2 x3 x4 (ix2 k j)) Cert.Spec.nW)) Cert.Spec.nW + Cert.Spec.epsW) + x6 (ix1 j) := by
  rw [val_main_v55_apply, val_main_v52_apply, val_main_v46_apply, val_main_v45_apply, val_main_v44_apply,
    val_main_v43_apply, val_main_v42_apply, val_main_v41_apply, val_main_v51_apply, val_main_v50_apply,
    val_main_v54_apply, val_main_v53_apply, idx_v44_v45, idx_v41_v42, idx_v50_v51, idx_v53_v54,
    Ideal.addf_def, Ideal.mulf_def, Ideal.mulf_def, Ideal.subf_def, mean_at, rstd_at]

/-- The rectifier as the program writes it (compare with 0, select, multiply by the slope) is the specification's. -/
theorem leaky_eq (y : EReal) :
    Scalar.select (FloatOps.cmpf (F := Ideal) (φ := .f32) .oge y (FloatOps.ofBits (F := Ideal) .f32 0x00000000#32)) y
      (FloatOps.mulf (F := Ideal) (φ := .f32) (FloatOps.ofBits (F := Ideal) .f32 0x3C23D70A#32) y) = Cert.Spec.leaky y := rfl

/-- The reference's result at node i and feature j is the specification's two-pass form over the layer's array. -/
theorem ref_out_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 : (⟨S128, .f32⟩ : BufTy).Contents (Elt Ideal)) (i : Fin 100000) (j : Fin 128) :
    val_main_v60 (F := Ideal) x0 x1 x2 x3 x4 x5 x6 (ix2 i j) = Cert.Spec.refOut (val_main_v30 (F := Ideal) x0 x1 x2 x3 x4) x5 x6 i j := by
  rw [val_main_v60_apply, val_main_v57_apply, val_main_v59_apply, val_main_v56_apply, val_main_v58_apply,
    val_main_cst_9_apply, val_main_cst_10_apply, leaky_eq, norm_at, Cert.Spec.refOut]

/-! ### The layer at one entry -/

/-- The layer's value at node i and feature j: the neighbours' summed features, each divided by the guarded neighbour
    count, through the transposed left weight, plus the bias, plus the node's own features through the transposed
    right weight. -/
theorem ref_h_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (i : Fin 100000) (j : Fin 128) :
    val_main_v30 (F := Ideal) x0 x1 x2 x3 x4 (ix2 i j)
      = (∑ k : Fin 128, Ideal.div (val_main_v13 (F := Ideal) x0 x1 (ix2 i k)) (max (val_main_v17 (F := Ideal) x1 (ix1 i)) Cert.Spec.oneW) * val_main_v23 (F := Ideal) x2 (ix2 k j) + x3 (ix1 j))
        + ∑ k : Fin 128, x0 (ix2 i k) * val_main_v28 (F := Ideal) x4 (ix2 k j) := by
  rw [val_main_v30_apply, val_main_v27_apply, val_main_v24_apply, val_main_v29_apply, val_main_v26_apply,
    val_main_v25_apply, idx_v25_v26, Ideal.addf_def, Ideal.addf_def]
  refine congrArg₂ (· + ·) (congrArg (· + x3 (ix1 j)) (Finset.sum_congr rfl fun k _ => ?_))
    (Finset.sum_congr rfl fun k _ => ?_)
  · rw [lidx_v24, ridx_v24, val_main_v22_apply, val_main_v21_apply, val_main_v20_apply, idx_v20_v21,
      val_main_v19_apply, val_main_v18_apply, val_main_cst_3_apply, Ideal.hostDivf_def, Ideal.maximumf_def,
      Ideal.ofBits_def]
  · rw [lidx_v29, ridx_v29]

end Cert.RefRead

end
-- ==== Proof.Join.lean ====
/-
  The two programs' results are one array.

  The kernel's result at node i and feature j is the kernel's BatchNorm (one pass over 25 blocks of 4000 nodes) of its
  layer's array, then the rectifier; the reference's is the two-pass BatchNorm of its layer's array, then the
  rectifier. The two layer arrays are the same function of the arguments: both are
      ∑ₖ (msg[i,k] / max(cnt[i], 1)) · wlᵀ[k,j] + ∑ₖ x[i,k] · wrᵀ[k,j] + b[j],
  the reference adding the bias before the second sum and the kernel after it, which addition on the extended reals
  allows. Under the precondition every float argument holds real numbers, so the layer's array does, and on real
  entries the two BatchNorms agree.
-/
import proofs.«152660_j24068996727347_2_alg».proof.Proof.KernelValue
import proofs.«152660_j24068996727347_2_alg».proof.Proof.KLayer
import proofs.«152660_j24068996727347_2_alg».proof.Proof.Bridge
import proofs.«152660_j24068996727347_2_alg».proof.Proof.Finite
import proofs.«152660_j24068996727347_2_alg».proof.Proof.RefRead
import proofs.«152660_j24068996727347_2_alg».proof.Proof.Gen.Pre_finite_inputs

set_option maxRecDepth 16384

noncomputable section

namespace Cert.Join

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reference's layer at node `i`, feature `j`: the same two sums and the bias, the bias added second. -/
theorem ref_layer_at (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal)) (i : Fin 100000) (j : Fin 128) :
    Cert.ReferenceIdeal.Read.val_main_v30 (F := Ideal) x0 x1 x2 x3 x4 (ix2 i j)
      = KLayer.layerOf (Cert.ReferenceIdeal.Read.val_main_v13 (F := Ideal) x0 x1) (Cert.ReferenceIdeal.Read.val_main_v17 (F := Ideal) x1) x0
          (Cert.ReferenceIdeal.Read.val_main_v23 (F := Ideal) x2) (Cert.ReferenceIdeal.Read.val_main_v28 (F := Ideal) x4) x3 i j := by
  rw [Cert.RefRead.ref_h_at]
  unfold KLayer.layerOf
  exact add_right_comm _ _ _

/-- The kernel's layer array is the reference's layer array of the same arguments. -/
theorem layer_eq (c : Dev nD) :
    KLayer.Hk m ρ c = Cert.ReferenceIdeal.Read.val_main_v30 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext idx
  obtain ⟨i, j, rfl⟩ : ∃ (i : Fin 100000) (j : Fin 128), idx = ix2 i j := ⟨idx 0, idx 1, eq_ix2 idx⟩
  exact (KLayer.ker_h_at m ρ c i j).trans (ref_layer_at _ _ _ _ _ i j).symm

/-- Under the precondition the kernel's result array is the reference's last stage of the same arguments. -/
theorem result_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1) :
    W4 m ρ c (Proc.devRef .tc main_v45)
      = Cert.ReferenceIdeal.Read.val_main_v60 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  obtain ⟨h0, h2, h3, h4, h5, h6⟩ := Cert.Finite.pre_reals _ _ _ _ _ _ _ hpre
  funext idx
  obtain ⟨i, j, rfl⟩ : ∃ (i : Fin 100000) (j : Fin 128), idx = ix2 i j := ⟨idx 0, idx 1, eq_ix2 idx⟩
  refine (KernelValue.ker_out_at m ρ c i j).trans ?_
  refine (Cert.Bridge.out_eq (KLayer.Hk m ρ c) (KernelValue.gamma m c) (KernelValue.beta m c)
    (fun k j => KLayer.H_real m ρ c h0 h2 h3 h4 k j) h5 h6 i j).trans ?_
  rw [layer_eq m ρ c]
  exact (Cert.RefRead.ref_out_at _ _ _ _ _ _ _ i j).symm

end Cert.Join

end
-- ==== Proof.lean ====
/-
  The certificate: a SAGE graph layer followed by batch normalisation and a leaky rectifier, kernel against reference.

  Both programs compute, for node i and feature j, the layer
      h[i,j] = ∑ₖ (msg[i,k] / max(cnt[i], 1)) · W_l[j,k] + b[j] + ∑ₖ x[i,k] · W_r[j,k],
  where msg[i] is the sum of the features of i's in-neighbours and cnt[i] their number, then normalise each feature over
  the N = 100000 nodes and apply y ↦ y for y ≥ 0, 0.01·y otherwise. The kernel does it in two passes over 25 blocks of
  4000 nodes: the first computes h and each block's column sums of h and h²; the host turns the 25 partial sums into
  μ = t₁/N, var = max(t₂/N − μ², 0), scale = γ·rsqrt(var + ε), bias = β − μ·scale; the second returns leaky(h·scale + bias).
  The reference computes μ and the variance ∑(h − μ)²/N over all nodes at once and returns leaky((γ·(h − μ))·rsqrt(var + ε) + β).

  On the extended reals the two are the same function of the arguments once every entry of h is a real number: the
  blocked sums are the whole sums, t₂/N − μ² is the non-negative variance, and the affine forms agree by distributivity.
  Real-valuedness of h is what the precondition (every float input finite) gives, through the gather and the
  scatter-add, which only select and add finitely many entries. The three frames are the generated runs; the
  idealization rewrote nothing, so nothing is owed for it.
-/
import proofs.«152660_j24068996727347_2_alg».proof.Defs
import proofs.«152660_j24068996727347_2_alg».proof.Proof.Gen.Kernel
import proofs.«152660_j24068996727347_2_alg».proof.Proof.Gen.Kernel.Skeleton
import proofs.«152660_j24068996727347_2_alg».proof.Proof.Gen.Kernel.Launch
import proofs.«152660_j24068996727347_2_alg».proof.Proof.Gen.Kernel.Points
import proofs.«152660_j24068996727347_2_alg».proof.Proof.Gen.Kernel.Frame
import proofs.«152660_j24068996727347_2_alg».proof.Proof.Gen.KernelIdeal
import proofs.«152660_j24068996727347_2_alg».proof.Proof.Gen.KernelIdeal.Skeleton
import proofs.«152660_j24068996727347_2_alg».proof.Proof.Gen.KernelIdeal.Launch
import proofs.«152660_j24068996727347_2_alg».proof.Proof.Gen.KernelIdeal.Points
import proofs.«152660_j24068996727347_2_alg».proof.Proof.Gen.KernelIdeal.Frame
import proofs.«152660_j24068996727347_2_alg».proof.Proof.Gen.ReferenceIdeal
import proofs.«152660_j24068996727347_2_alg».proof.Proof.Gen.ReferenceIdeal.Run
import proofs.«152660_j24068996727347_2_alg».proof.Proof.Gen.ReferenceIdeal.Read
import proofs.«152660_j24068996727347_2_alg».proof.Proof.Gen.Pre_finite_inputs
import proofs.«152660_j24068996727347_2_alg».proof.Proof.KernelRun
import proofs.«152660_j24068996727347_2_alg».proof.Proof.Join
import Idealize.ShloMosaic.Adequacy
import Idealize.ShloMosaic.Init

noncomputable section

namespace Cert.Proof

open Idealize.ShloMosaic Idealize.SL.Sem Cert.Kernel

/-- The word-level kernel's run: every weakly fair execution terminates without a fault, the arguments unchanged. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments, the kernel's result buffer ends at the array the second pallas_call
    leaves and the reference's at its last stage of the same arguments; under the precondition these are one array. -/
theorem algebraic : Cert.algebraic_KernelIdeal_ReferenceIdeal := by
  intro m ρ m' ρ' hpre hagree
  refine ⟨fun c => Cert.KernelIdeal.Gen.W4 m ρ c (Proc.devRef .tc Cert.KernelIdeal.main_v45), Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, (hagree c).1, (hagree c).2.1, (hagree c).2.2.1, (hagree c).2.2.2.1,
    (hagree c).2.2.2.2.1, (hagree c).2.2.2.2.2.1, (hagree c).2.2.2.2.2.2]
  exact (Cert.Join.result_eq m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
